-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x32x128 : Shape := ⟨3, ![16384, 32, 128]⟩
abbrev S_ : Shape := ⟨0, ![]⟩

class Facts : Prop where
  bcast_S_S16384x32x128 : S_.BroadcastsInDim S16384x32x128 (![] : Fin 0 → Fin S16384x32x128.rank)
  reducesTo_S16384x32x128_S_d0_1_2 : S16384x32x128.ReducesTo [0, 1, 2] S_
  h_S_ : 0 < S_.numel

variable [Facts]

def fn {F : FTy → Type} [FloatOps F] (main_arg0 : FVec F S16384x32x128 .f32) : IVec S_ 1 :=
  let main_v0 : FVec F S16384x32x128 .f32 := Host.absf main_arg0
  let main_cst : FVec F S_ .f32 := constant S_ .f32 0x7F800000#32
  let main_v1 : FVec F S16384x32x128 .f32 := broadcastInDim S16384x32x128 ![] bcast_S_S16384x32x128 main_cst
  let main_v2 : IVec S16384x32x128 1 := cmpf .olt main_v0 main_v1
  let main_c : IVec S_ 1 := constantI S_ 1 1#1
  let main_v3 : IVec S_ 1 := (fun x v => Host.reduce IntOp.andi x v reducesTo_S16384x32x128_S_d0_1_2 h_S_) main_v2 main_c
  main_v3
-- ==== Kernel.lean ====
abbrev S16384x32x128 : Shape := ⟨3, ![16384, 32, 128]⟩
abbrev S16384x496 : Shape := ⟨2, ![16384, 496]⟩
abbrev S512x32x128 : Shape := ⟨3, ![512, 32, 128]⟩
abbrev S512x496 : Shape := ⟨2, ![512, 496]⟩
abbrev S512x32x32 : Shape := ⟨3, ![512, 32, 32]⟩
abbrev S512x1x31 : Shape := ⟨3, ![512, 1, 31]⟩
abbrev S512x31 : Shape := ⟨2, ![512, 31]⟩
abbrev S512x1x30 : Shape := ⟨3, ![512, 1, 30]⟩
abbrev S512x30 : Shape := ⟨2, ![512, 30]⟩
abbrev S512x1x29 : Shape := ⟨3, ![512, 1, 29]⟩
abbrev S512x29 : Shape := ⟨2, ![512, 29]⟩
abbrev S512x1x28 : Shape := ⟨3, ![512, 1, 28]⟩
abbrev S512x28 : Shape := ⟨2, ![512, 28]⟩
abbrev S512x1x27 : Shape := ⟨3, ![512, 1, 27]⟩
abbrev S512x27 : Shape := ⟨2, ![512, 27]⟩
abbrev S512x1x26 : Shape := ⟨3, ![512, 1, 26]⟩
abbrev S512x26 : Shape := ⟨2, ![512, 26]⟩
abbrev S512x1x25 : Shape := ⟨3, ![512, 1, 25]⟩
abbrev S512x25 : Shape := ⟨2, ![512, 25]⟩
abbrev S512x1x24 : Shape := ⟨3, ![512, 1, 24]⟩
abbrev S512x24 : Shape := ⟨2, ![512, 24]⟩
abbrev S512x1x23 : Shape := ⟨3, ![512, 1, 23]⟩
abbrev S512x23 : Shape := ⟨2, ![512, 23]⟩
abbrev S512x1x22 : Shape := ⟨3, ![512, 1, 22]⟩
abbrev S512x22 : Shape := ⟨2, ![512, 22]⟩
abbrev S512x1x21 : Shape := ⟨3, ![512, 1, 21]⟩
abbrev S512x21 : Shape := ⟨2, ![512, 21]⟩
abbrev S512x1x20 : Shape := ⟨3, ![512, 1, 20]⟩
abbrev S512x20 : Shape := ⟨2, ![512, 20]⟩
abbrev S512x1x19 : Shape := ⟨3, ![512, 1, 19]⟩
abbrev S512x19 : Shape := ⟨2, ![512, 19]⟩
abbrev S512x1x18 : Shape := ⟨3, ![512, 1, 18]⟩
abbrev S512x18 : Shape := ⟨2, ![512, 18]⟩
abbrev S512x1x17 : Shape := ⟨3, ![512, 1, 17]⟩
abbrev S512x17 : Shape := ⟨2, ![512, 17]⟩
abbrev S512x1x16 : Shape := ⟨3, ![512, 1, 16]⟩
abbrev S512x16 : Shape := ⟨2, ![512, 16]⟩
abbrev S512x1x15 : Shape := ⟨3, ![512, 1, 15]⟩
abbrev S512x15 : Shape := ⟨2, ![512, 15]⟩
abbrev S512x1x14 : Shape := ⟨3, ![512, 1, 14]⟩
abbrev S512x14 : Shape := ⟨2, ![512, 14]⟩
abbrev S512x1x13 : Shape := ⟨3, ![512, 1, 13]⟩
abbrev S512x13 : Shape := ⟨2, ![512, 13]⟩
abbrev S512x1x12 : Shape := ⟨3, ![512, 1, 12]⟩
abbrev S512x12 : Shape := ⟨2, ![512, 12]⟩
abbrev S512x1x11 : Shape := ⟨3, ![512, 1, 11]⟩
abbrev S512x11 : Shape := ⟨2, ![512, 11]⟩
abbrev S512x1x10 : Shape := ⟨3, ![512, 1, 10]⟩
abbrev S512x10 : Shape := ⟨2, ![512, 10]⟩
abbrev S512x1x9 : Shape := ⟨3, ![512, 1, 9]⟩
abbrev S512x9 : Shape := ⟨2, ![512, 9]⟩
abbrev S512x1x8 : Shape := ⟨3, ![512, 1, 8]⟩
abbrev S512x8 : Shape := ⟨2, ![512, 8]⟩
abbrev S512x1x7 : Shape := ⟨3, ![512, 1, 7]⟩
abbrev S512x7 : Shape := ⟨2, ![512, 7]⟩
abbrev S512x1x6 : Shape := ⟨3, ![512, 1, 6]⟩
abbrev S512x6 : Shape := ⟨2, ![512, 6]⟩
abbrev S512x1x5 : Shape := ⟨3, ![512, 1, 5]⟩
abbrev S512x5 : Shape := ⟨2, ![512, 5]⟩
abbrev S512x1x4 : Shape := ⟨3, ![512, 1, 4]⟩
abbrev S512x4 : Shape := ⟨2, ![512, 4]⟩
abbrev S512x1x3 : Shape := ⟨3, ![512, 1, 3]⟩
abbrev S512x3 : Shape := ⟨2, ![512, 3]⟩
abbrev S512x1x2 : Shape := ⟨3, ![512, 1, 2]⟩
abbrev S512x2 : Shape := ⟨2, ![512, 2]⟩
abbrev S512x1x1 : Shape := ⟨3, ![512, 1, 1]⟩
abbrev S512x1 : Shape := ⟨2, ![512, 1]⟩

abbrev nBuf : Space → Nat
  | .hbm => 2
  | .vmem => 4
  | .smem => 0
  | _ => 0

abbrev bufTy : (tb : Table) → Fin (tcTables nBuf tb) → BufTy
  | .hbm, ⟨0, _⟩ => ⟨S16384x32x128, .f32⟩
  | .hbm, ⟨1, _⟩ => ⟨S16384x496, .f32⟩
  | .local _ .vmem, ⟨0, _⟩ => ⟨S512x32x128, .f32⟩
  | .local _ .vmem, ⟨1, _⟩ => ⟨S512x32x128, .f32⟩
  | .local _ .vmem, ⟨2, _⟩ => ⟨S512x496, .f32⟩
  | .local _ .vmem, ⟨3, _⟩ => ⟨S512x496, .f32⟩
  | _, _ => ⟨S16384x32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x496 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S512x32x128_S512x32x128_0_0_0 : ∀ a, (![0, 0, 0] : Fin 3 → Nat) a + S512x32x128.size a ≤ S512x32x128.size a
  h_S512x32x128 : 0 < S512x32x128.numel
  bitsLt_bf16_f32 : FTy.bits .bf16 < FTy.bits .f32
  slices_S512x32x32_o0_0_1_S512x1x31 : S512x32x32.Slices ![0, 0, 1] S512x1x31
  shapeCasts_S512x1x31_S512x31 : S512x1x31.ShapeCasts S512x31
  inb_S512x496_S512x31_0_0 : ∀ a, (![0, 0] : Fin 2 → Nat) a + S512x31.size a ≤ S512x496.size a
  h_S512x31 : 0 < S512x31.numel
  slices_S512x32x32_o0_1_2_S512x1x30 : S512x32x32.Slices ![0, 1, 2] S512x1x30
  shapeCasts_S512x1x30_S512x30 : S512x1x30.ShapeCasts S512x30
  inb_S512x496_S512x30_0_31 : ∀ a, (![0, 31] : Fin 2 → Nat) a + S512x30.size a ≤ S512x496.size a
  h_S512x30 : 0 < S512x30.numel
  slices_S512x32x32_o0_2_3_S512x1x29 : S512x32x32.Slices ![0, 2, 3] S512x1x29
  shapeCasts_S512x1x29_S512x29 : S512x1x29.ShapeCasts S512x29
  inb_S512x496_S512x29_0_61 : ∀ a, (![0, 61] : Fin 2 → Nat) a + S512x29.size a ≤ S512x496.size a
  h_S512x29 : 0 < S512x29.numel
  slices_S512x32x32_o0_3_4_S512x1x28 : S512x32x32.Slices ![0, 3, 4] S512x1x28
  shapeCasts_S512x1x28_S512x28 : S512x1x28.ShapeCasts S512x28
  inb_S512x496_S512x28_0_90 : ∀ a, (![0, 90] : Fin 2 → Nat) a + S512x28.size a ≤ S512x496.size a
  h_S512x28 : 0 < S512x28.numel
  slices_S512x32x32_o0_4_5_S512x1x27 : S512x32x32.Slices ![0, 4, 5] S512x1x27
  shapeCasts_S512x1x27_S512x27 : S512x1x27.ShapeCasts S512x27
  inb_S512x496_S512x27_0_118 : ∀ a, (![0, 118] : Fin 2 → Nat) a + S512x27.size a ≤ S512x496.size a
  h_S512x27 : 0 < S512x27.numel
  slices_S512x32x32_o0_5_6_S512x1x26 : S512x32x32.Slices ![0, 5, 6] S512x1x26
  shapeCasts_S512x1x26_S512x26 : S512x1x26.ShapeCasts S512x26
  inb_S512x496_S512x26_0_145 : ∀ a, (![0, 145] : Fin 2 → Nat) a + S512x26.size a ≤ S512x496.size a
  h_S512x26 : 0 < S512x26.numel
  slices_S512x32x32_o0_6_7_S512x1x25 : S512x32x32.Slices ![0, 6, 7] S512x1x25
  shapeCasts_S512x1x25_S512x25 : S512x1x25.ShapeCasts S512x25
  inb_S512x496_S512x25_0_171 : ∀ a, (![0, 171] : Fin 2 → Nat) a + S512x25.size a ≤ S512x496.size a
  h_S512x25 : 0 < S512x25.numel
  slices_S512x32x32_o0_7_8_S512x1x24 : S512x32x32.Slices ![0, 7, 8] S512x1x24
  shapeCasts_S512x1x24_S512x24 : S512x1x24.ShapeCasts S512x24
  inb_S512x496_S512x24_0_196 : ∀ a, (![0, 196] : Fin 2 → Nat) a + S512x24.size a ≤ S512x496.size a
  h_S512x24 : 0 < S512x24.numel
  slices_S512x32x32_o0_8_9_S512x1x23 : S512x32x32.Slices ![0, 8, 9] S512x1x23
  shapeCasts_S512x1x23_S512x23 : S512x1x23.ShapeCasts S512x23
  inb_S512x496_S512x23_0_220 : ∀ a, (![0, 220] : Fin 2 → Nat) a + S512x23.size a ≤ S512x496.size a
  h_S512x23 : 0 < S512x23.numel
  slices_S512x32x32_o0_9_10_S512x1x22 : S512x32x32.Slices ![0, 9, 10] S512x1x22
  shapeCasts_S512x1x22_S512x22 : S512x1x22.ShapeCasts S512x22
  inb_S512x496_S512x22_0_243 : ∀ a, (![0, 243] : Fin 2 → Nat) a + S512x22.size a ≤ S512x496.size a
  h_S512x22 : 0 < S512x22.numel
  slices_S512x32x32_o0_10_11_S512x1x21 : S512x32x32.Slices ![0, 10, 11] S512x1x21
  shapeCasts_S512x1x21_S512x21 : S512x1x21.ShapeCasts S512x21
  inb_S512x496_S512x21_0_265 : ∀ a, (![0, 265] : Fin 2 → Nat) a + S512x21.size a ≤ S512x496.size a
  h_S512x21 : 0 < S512x21.numel
  slices_S512x32x32_o0_11_12_S512x1x20 : S512x32x32.Slices ![0, 11, 12] S512x1x20
  shapeCasts_S512x1x20_S512x20 : S512x1x20.ShapeCasts S512x20
  inb_S512x496_S512x20_0_286 : ∀ a, (![0, 286] : Fin 2 → Nat) a + S512x20.size a ≤ S512x496.size a
  h_S512x20 : 0 < S512x20.numel
  slices_S512x32x32_o0_12_13_S512x1x19 : S512x32x32.Slices ![0, 12, 13] S512x1x19
  shapeCasts_S512x1x19_S512x19 : S512x1x19.ShapeCasts S512x19
  inb_S512x496_S512x19_0_306 : ∀ a, (![0, 306] : Fin 2 → Nat) a + S512x19.size a ≤ S512x496.size a
  h_S512x19 : 0 < S512x19.numel
  slices_S512x32x32_o0_13_14_S512x1x18 : S512x32x32.Slices ![0, 13, 14] S512x1x18
  shapeCasts_S512x1x18_S512x18 : S512x1x18.ShapeCasts S512x18
  inb_S512x496_S512x18_0_325 : ∀ a, (![0, 325] : Fin 2 → Nat) a + S512x18.size a ≤ S512x496.size a
  h_S512x18 : 0 < S512x18.numel
  slices_S512x32x32_o0_14_15_S512x1x17 : S512x32x32.Slices ![0, 14, 15] S512x1x17
  shapeCasts_S512x1x17_S512x17 : S512x1x17.ShapeCasts S512x17
  inb_S512x496_S512x17_0_343 : ∀ a, (![0, 343] : Fin 2 → Nat) a + S512x17.size a ≤ S512x496.size a
  h_S512x17 : 0 < S512x17.numel
  slices_S512x32x32_o0_15_16_S512x1x16 : S512x32x32.Slices ![0, 15, 16] S512x1x16
  shapeCasts_S512x1x16_S512x16 : S512x1x16.ShapeCasts S512x16
  inb_S512x496_S512x16_0_360 : ∀ a, (![0, 360] : Fin 2 → Nat) a + S512x16.size a ≤ S512x496.size a
  h_S512x16 : 0 < S512x16.numel
  slices_S512x32x32_o0_16_17_S512x1x15 : S512x32x32.Slices ![0, 16, 17] S512x1x15
  shapeCasts_S512x1x15_S512x15 : S512x1x15.ShapeCasts S512x15
  inb_S512x496_S512x15_0_376 : ∀ a, (![0, 376] : Fin 2 → Nat) a + S512x15.size a ≤ S512x496.size a
  h_S512x15 : 0 < S512x15.numel
  slices_S512x32x32_o0_17_18_S512x1x14 : S512x32x32.Slices ![0, 17, 18] S512x1x14
  shapeCasts_S512x1x14_S512x14 : S512x1x14.ShapeCasts S512x14
  inb_S512x496_S512x14_0_391 : ∀ a, (![0, 391] : Fin 2 → Nat) a + S512x14.size a ≤ S512x496.size a
  h_S512x14 : 0 < S512x14.numel
  slices_S512x32x32_o0_18_19_S512x1x13 : S512x32x32.Slices ![0, 18, 19] S512x1x13
  shapeCasts_S512x1x13_S512x13 : S512x1x13.ShapeCasts S512x13
  inb_S512x496_S512x13_0_405 : ∀ a, (![0, 405] : Fin 2 → Nat) a + S512x13.size a ≤ S512x496.size a
  h_S512x13 : 0 < S512x13.numel
  slices_S512x32x32_o0_19_20_S512x1x12 : S512x32x32.Slices ![0, 19, 20] S512x1x12
  shapeCasts_S512x1x12_S512x12 : S512x1x12.ShapeCasts S512x12
  inb_S512x496_S512x12_0_418 : ∀ a, (![0, 418] : Fin 2 → Nat) a + S512x12.size a ≤ S512x496.size a
  h_S512x12 : 0 < S512x12.numel
  slices_S512x32x32_o0_20_21_S512x1x11 : S512x32x32.Slices ![0, 20, 21] S512x1x11
  shapeCasts_S512x1x11_S512x11 : S512x1x11.ShapeCasts S512x11
  inb_S512x496_S512x11_0_430 : ∀ a, (![0, 430] : Fin 2 → Nat) a + S512x11.size a ≤ S512x496.size a
  h_S512x11 : 0 < S512x11.numel
  slices_S512x32x32_o0_21_22_S512x1x10 : S512x32x32.Slices ![0, 21, 22] S512x1x10
  shapeCasts_S512x1x10_S512x10 : S512x1x10.ShapeCasts S512x10
  inb_S512x496_S512x10_0_441 : ∀ a, (![0, 441] : Fin 2 → Nat) a + S512x10.size a ≤ S512x496.size a
  h_S512x10 : 0 < S512x10.numel
  slices_S512x32x32_o0_22_23_S512x1x9 : S512x32x32.Slices ![0, 22, 23] S512x1x9
  shapeCasts_S512x1x9_S512x9 : S512x1x9.ShapeCasts S512x9
  inb_S512x496_S512x9_0_451 : ∀ a, (![0, 451] : Fin 2 → Nat) a + S512x9.size a ≤ S512x496.size a
  h_S512x9 : 0 < S512x9.numel
  slices_S512x32x32_o0_23_24_S512x1x8 : S512x32x32.Slices ![0, 23, 24] S512x1x8
  shapeCasts_S512x1x8_S512x8 : S512x1x8.ShapeCasts S512x8
  inb_S512x496_S512x8_0_460 : ∀ a, (![0, 460] : Fin 2 → Nat) a + S512x8.size a ≤ S512x496.size a
  h_S512x8 : 0 < S512x8.numel
  slices_S512x32x32_o0_24_25_S512x1x7 : S512x32x32.Slices ![0, 24, 25] S512x1x7
  shapeCasts_S512x1x7_S512x7 : S512x1x7.ShapeCasts S512x7
  inb_S512x496_S512x7_0_468 : ∀ a, (![0, 468] : Fin 2 → Nat) a + S512x7.size a ≤ S512x496.size a
  h_S512x7 : 0 < S512x7.numel
  slices_S512x32x32_o0_25_26_S512x1x6 : S512x32x32.Slices ![0, 25, 26] S512x1x6
  shapeCasts_S512x1x6_S512x6 : S512x1x6.ShapeCasts S512x6
  inb_S512x496_S512x6_0_475 : ∀ a, (![0, 475] : Fin 2 → Nat) a + S512x6.size a ≤ S512x496.size a
  h_S512x6 : 0 < S512x6.numel
  slices_S512x32x32_o0_26_27_S512x1x5 : S512x32x32.Slices ![0, 26, 27] S512x1x5
  shapeCasts_S512x1x5_S512x5 : S512x1x5.ShapeCasts S512x5
  inb_S512x496_S512x5_0_481 : ∀ a, (![0, 481] : Fin 2 → Nat) a + S512x5.size a ≤ S512x496.size a
  h_S512x5 : 0 < S512x5.numel
  slices_S512x32x32_o0_27_28_S512x1x4 : S512x32x32.Slices ![0, 27, 28] S512x1x4
  shapeCasts_S512x1x4_S512x4 : S512x1x4.ShapeCasts S512x4
  inb_S512x496_S512x4_0_486 : ∀ a, (![0, 486] : Fin 2 → Nat) a + S512x4.size a ≤ S512x496.size a
  h_S512x4 : 0 < S512x4.numel
  slices_S512x32x32_o0_28_29_S512x1x3 : S512x32x32.Slices ![0, 28, 29] S512x1x3
  shapeCasts_S512x1x3_S512x3 : S512x1x3.ShapeCasts S512x3
  inb_S512x496_S512x3_0_490 : ∀ a, (![0, 490] : Fin 2 → Nat) a + S512x3.size a ≤ S512x496.size a
  h_S512x3 : 0 < S512x3.numel
  slices_S512x32x32_o0_29_30_S512x1x2 : S512x32x32.Slices ![0, 29, 30] S512x1x2
  shapeCasts_S512x1x2_S512x2 : S512x1x2.ShapeCasts S512x2
  inb_S512x496_S512x2_0_493 : ∀ a, (![0, 493] : Fin 2 → Nat) a + S512x2.size a ≤ S512x496.size a
  h_S512x2 : 0 < S512x2.numel
  slices_S512x32x32_o0_30_31_S512x1x1 : S512x32x32.Slices ![0, 30, 31] S512x1x1
  shapeCasts_S512x1x1_S512x1 : S512x1x1.ShapeCasts S512x1
  inb_S512x496_S512x1_0_495 : ∀ a, (![0, 495] : Fin 2 → Nat) a + S512x1.size a ≤ S512x496.size a
  h_S512x1 : 0 < S512x1.numel
  dot_S512x32x128_S512x32x128_S512x32x32_2_2_1_1_0_0_wf : DotDims.WF S512x32x128 S512x32x128 S512x32x32 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x32x128.size a ≤ S16384x32x128.size a
  hwx0_0 : ∀ i : grid0.Coords, EltTy.bits .f32 = 32 ∨ (Rect.block (s := S16384x32x128) S512x32x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x496.size a ≤ S16384x496.size a
  hwx0_1 : ∀ i : grid0.Coords, EltTy.bits .f32 = 32 ∨ (Rect.block (s := S16384x496) S512x496.size (cc0_transform_1 i) (hinb0_1 i)).WholeWords (EltTy.packing .f32)

variable [Facts₀]

def dot_S512x32x128_S512x32x128_S512x32x32_2_2_1_1_0_0 : DotDims S512x32x128 S512x32x128 S512x32x32 where
  lhsContracting := [2]
  rhsContracting := [2]
  lhsNonContracting := [1]
  rhsNonContracting := [1]
  lhsBatch := [0]
  rhsBatch := [0]
  wf := dot_S512x32x128_S512x32x128_S512x32x32_2_2_1_1_0_0_wf

abbrev win0_0 : Pipeline.Window sig grid0 :=
  Pipeline.Window.ofSpec (Memref.whole main_arg0) S512x32x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x496.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16384x32x128 : Shape := ⟨3, ![16384, 32, 128]⟩
abbrev S16384x32x32 : Shape := ⟨3, ![16384, 32, 32]⟩
abbrev S_ : Shape := ⟨0, ![]⟩
abbrev S32x32 : Shape := ⟨2, ![32, 32]⟩
abbrev S1024 : Shape := ⟨1, ![1024]⟩
abbrev S496 : Shape := ⟨1, ![496]⟩
abbrev S1024x1 : Shape := ⟨2, ![1024, 1]⟩
abbrev S496x1 : Shape := ⟨2, ![496, 1]⟩
abbrev S496x2 : Shape := ⟨2, ![496, 2]⟩
abbrev S16384x496 : Shape := ⟨2, ![16384, 496]⟩

abbrev nBuf : Space → Nat
  | .hbm => 137
  | .vmem => 0
  | .smem => 0
  | _ => 0

abbrev hbmTy0_0 (i : Nat) : BufTy := match i % 128 with
  | 0 => ⟨S16384x32x128, .f32⟩
  | 1 => ⟨S16384x32x32, .f32⟩
  | 2 => ⟨S_, .f32⟩
  | 3 => ⟨S32x32, .f32⟩
  | 4 => ⟨S32x32, .i32⟩
  | 5 => ⟨S_, .i32⟩
  | 6 => ⟨S32x32, .i32⟩
  | 7 => ⟨S32x32, .i32⟩
  | 8 => ⟨S32x32, .i32⟩
  | 9 => ⟨S32x32, .i1⟩
  | 10 => ⟨S_, .f32⟩
  | 11 => ⟨S32x32, .f32⟩
  | 12 => ⟨S32x32, .f32⟩
  | 13 => ⟨S_, .f32⟩
  | 14 => ⟨S32x32, .f32⟩
  | 15 => ⟨S32x32, .i1⟩
  | 16 => ⟨S1024, .i1⟩
  | 17 => ⟨S1024, .i32⟩
  | 18 => ⟨S_, .i32⟩
  | 19 => ⟨S_, .i32⟩
  | 20 => ⟨S1024, .i32⟩
  | 21 => ⟨S_, .i32⟩
  | 22 => ⟨S496, .i32⟩
  | 23 => ⟨S_, .i32⟩
  | 24 => ⟨S_, .i32⟩
  | 25 => ⟨S1024, .i32⟩
  | 26 => ⟨S1024, .i32⟩
  | 27 => ⟨S_, .i32⟩
  | 28 => ⟨S1024, .i32⟩
  | 29 => ⟨S1024, .i1⟩
  | 30 => ⟨S_, .i32⟩
  | 31 => ⟨S1024, .i32⟩
  | 32 => ⟨S1024, .i32⟩
  | 33 => ⟨S1024, .i32⟩
  | 34 => ⟨S1024x1, .i32⟩
  | 35 => ⟨S_, .i32⟩
  | 36 => ⟨S1024, .i32⟩
  | 37 => ⟨S496, .i32⟩
  | 38 => ⟨S_, .i32⟩
  | 39 => ⟨S_, .i32⟩
  | 40 => ⟨S496, .i32⟩
  | 41 => ⟨S_, .i32⟩
  | 42 => ⟨S496, .i32⟩
  | 43 => ⟨S496, .i32⟩
  | 44 => ⟨S496, .i32⟩
  | 45 => ⟨S_, .i32⟩
  | 46 => ⟨S496, .i32⟩
  | 47 => ⟨S496, .i1⟩
  | 48 => ⟨S496, .i32⟩
  | 49 => ⟨S496, .i32⟩
  | 50 => ⟨S_, .i32⟩
  | 51 => ⟨S496, .i32⟩
  | 52 => ⟨S496, .i1⟩
  | 53 => ⟨S496, .i1⟩
  | 54 => ⟨S_, .i32⟩
  | 55 => ⟨S496, .i32⟩
  | 56 => ⟨S496, .i32⟩
  | 57 => ⟨S496, .i32⟩
  | 58 => ⟨S_, .i32⟩
  | 59 => ⟨S_, .i32⟩
  | 60 => ⟨S_, .i32⟩
  | 61 => ⟨S_, .i1⟩
  | 62 => ⟨S_, .i32⟩
  | 63 => ⟨S_, .i32⟩
  | 64 => ⟨S496, .i32⟩
  | 65 => ⟨S496, .i32⟩
  | 66 => ⟨S_, .i32⟩
  | 67 => ⟨S496, .i32⟩
  | 68 => ⟨S496, .i1⟩
  | 69 => ⟨S_, .i32⟩
  | 70 => ⟨S496, .i32⟩
  | 71 => ⟨S496, .i1⟩
  | 72 => ⟨S_, .i32⟩
  | 73 => ⟨S_, .i1⟩
  | 74 => ⟨S496, .i1⟩
  | 75 => ⟨S496, .i1⟩
  | 76 => ⟨S496, .i1⟩
  | 77 => ⟨S496, .i32⟩
  | 78 => ⟨S496, .i32⟩
  | 79 => ⟨S496, .i32⟩
  | 80 => ⟨S_, .i32⟩
  | 81 => ⟨S496, .i32⟩
  | 82 => ⟨S496, .i32⟩
  | 83 => ⟨S496, .i32⟩
  | 84 => ⟨S_, .i32⟩
  | 85 => ⟨S496, .i32⟩
  | 86 => ⟨S496, .i1⟩
  | 87 => ⟨S496, .i32⟩
  | 88 => ⟨S496, .i32⟩
  | 89 => ⟨S_, .i32⟩
  | 90 => ⟨S496, .i32⟩
  | 91 => ⟨S496, .i1⟩
  | 92 => ⟨S496, .i1⟩
  | 93 => ⟨S_, .i32⟩
  | 94 => ⟨S496, .i32⟩
  | 95 => ⟨S496, .i32⟩
  | 96 => ⟨S496, .i32⟩
  | 97 => ⟨S_, .i32⟩
  | 98 => ⟨S_, .i32⟩
  | 99 => ⟨S_, .i32⟩
  | 100 => ⟨S_, .i1⟩
  | 101 => ⟨S_, .i32⟩
  | 102 => ⟨S_, .i32⟩
  | 103 => ⟨S496, .i32⟩
  | 104 => ⟨S496, .i32⟩
  | 105 => ⟨S_, .i32⟩
  | 106 => ⟨S496, .i32⟩
  | 107 => ⟨S496, .i1⟩
  | 108 => ⟨S_, .i32⟩
  | 109 => ⟨S496, .i32⟩
  | 110 => ⟨S496, .i1⟩
  | 111 => ⟨S_, .i32⟩
  | 112 => ⟨S_, .i1⟩
  | 113 => ⟨S496, .i1⟩
  | 114 => ⟨S496, .i1⟩
  | 115 => ⟨S496, .i1⟩
  | 116 => ⟨S496, .i32⟩
  | 117 => ⟨S496, .i32⟩
  | 118 => ⟨S496, .i32⟩
  | 119 => ⟨S_, .i32⟩
  | 120 => ⟨S496, .i32⟩
  | 121 => ⟨S496, .i1⟩
  | 122 => ⟨S_, .i32⟩
  | 123 => ⟨S496, .i32⟩
  | 124 => ⟨S496, .i32⟩
  | 125 => ⟨S496, .i32⟩
  | 126 => ⟨S_, .i32⟩
  | 127 => ⟨S496, .i32⟩
  | _ => ⟨S16384x32x128, .f32⟩

abbrev hbmTy0_1 (i : Nat) : BufTy := match i % 128 with
  | 0 => ⟨S496, .i1⟩
  | 1 => ⟨S_, .i32⟩
  | 2 => ⟨S496, .i32⟩
  | 3 => ⟨S496, .i32⟩
  | 4 => ⟨S496, .i32⟩
  | 5 => ⟨S496x1, .i32⟩
  | 6 => ⟨S496x1, .i32⟩
  | 7 => ⟨S496x2, .i32⟩
  | 8 => ⟨S16384x496, .f32⟩
  | _ => ⟨S16384x32x128, .f32⟩

abbrev hbmTy (i : Nat) : BufTy := match i / 128 with
  | 0 => hbmTy0_0 i
  | 1 => hbmTy0_1 i
  | _ => ⟨S16384x32x128, .f32⟩

abbrev bufTy : (tb : Table) → Fin (tcTables nBuf tb) → BufTy
  | .hbm, ⟨i, _⟩ => hbmTy i
  | _, _ => ⟨S16384x32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_call0_v0 : Ref sig .tc := ⟨.hbm, 4, rfl⟩
abbrev main_call0_c : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_cst : Ref sig .tc := ⟨.hbm, 10, rfl⟩
abbrev main_call0_v5 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_call1_v0 : Ref sig .tc := ⟨.hbm, 16, rfl⟩
abbrev main_call1_v1 : Ref sig .tc := ⟨.hbm, 17, rfl⟩
abbrev main_call1_call0_c : Ref sig .tc := ⟨.hbm, 18, rfl⟩
abbrev main_call1_call0_v0 : Ref sig .tc := ⟨.hbm, 19, rfl⟩
abbrev main_v5 : Ref sig .tc := ⟨.hbm, 20, rfl⟩
abbrev main_c : Ref sig .tc := ⟨.hbm, 21, rfl⟩
abbrev main_v6 : Ref sig .tc := ⟨.hbm, 22, rfl⟩
abbrev main_c_1 : Ref sig .tc := ⟨.hbm, 23, rfl⟩
abbrev main_call2_v0 : Ref sig .tc := ⟨.hbm, 24, rfl⟩
abbrev main_call2_v1 : Ref sig .tc := ⟨.hbm, 25, rfl⟩
abbrev main_v7 : Ref sig .tc := ⟨.hbm, 26, rfl⟩
abbrev main_c_2 : Ref sig .tc := ⟨.hbm, 27, rfl⟩
abbrev main_v8 : Ref sig .tc := ⟨.hbm, 28, rfl⟩
abbrev main_v9 : Ref sig .tc := ⟨.hbm, 29, rfl⟩
abbrev main_c_3 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_c_4 : Ref sig .tc := ⟨.hbm, 35, rfl⟩
abbrev main_v14 : Ref sig .tc := ⟨.hbm, 36, rfl⟩
abbrev main_v15 : Ref sig .tc := ⟨.hbm, 37, rfl⟩
abbrev main_call3_call0_c : Ref sig .tc := ⟨.hbm, 38, rfl⟩
abbrev main_call3_call0_v0 : Ref sig .tc := ⟨.hbm, 39, rfl⟩
abbrev main_v16 : Ref sig .tc := ⟨.hbm, 40, rfl⟩
abbrev main_c_5 : Ref sig .tc := ⟨.hbm, 41, rfl⟩
abbrev main_call4_v0 : Ref sig .tc := ⟨.hbm, 42, rfl⟩
abbrev main_call4_v1 : Ref sig .tc := ⟨.hbm, 43, rfl⟩
abbrev main_call4_v2 : Ref sig .tc := ⟨.hbm, 44, rfl⟩
abbrev main_call4_v3 : Ref sig .tc := ⟨.hbm, 45, rfl⟩
abbrev main_call4_v4 : Ref sig .tc := ⟨.hbm, 46, rfl⟩
abbrev main_call4_v5 : Ref sig .tc := ⟨.hbm, 47, rfl⟩
abbrev main_call4_v6 : Ref sig .tc := ⟨.hbm, 48, rfl⟩
abbrev main_call4_v7 : Ref sig .tc := ⟨.hbm, 49, rfl⟩
abbrev main_call4_c : Ref sig .tc := ⟨.hbm, 50, rfl⟩
abbrev main_call4_v8 : Ref sig .tc := ⟨.hbm, 51, rfl⟩
abbrev main_call4_v9 : Ref sig .tc := ⟨.hbm, 52, rfl⟩
abbrev main_call4_v10 : Ref sig .tc := ⟨.hbm, 53, rfl⟩
abbrev main_call4_c_0 : Ref sig .tc := ⟨.hbm, 54, rfl⟩
abbrev main_call4_v11 : Ref sig .tc := ⟨.hbm, 55, rfl⟩
abbrev main_call4_v12 : Ref sig .tc := ⟨.hbm, 56, rfl⟩
abbrev main_v17 : Ref sig .tc := ⟨.hbm, 57, rfl⟩
abbrev main_c_6 : Ref sig .tc := ⟨.hbm, 58, rfl⟩
abbrev main_call5_v0 : Ref sig .tc := ⟨.hbm, 59, rfl⟩
abbrev main_call5_c : Ref sig .tc := ⟨.hbm, 60, rfl⟩
abbrev main_call5_v1 : Ref sig .tc := ⟨.hbm, 61, rfl⟩
abbrev main_call5_c_0 : Ref sig .tc := ⟨.hbm, 62, rfl⟩
abbrev main_call5_v2 : Ref sig .tc := ⟨.hbm, 63, rfl⟩
abbrev main_call5_v3 : Ref sig .tc := ⟨.hbm, 64, rfl⟩
abbrev main_call5_v4 : Ref sig .tc := ⟨.hbm, 65, rfl⟩
abbrev main_call5_c_1 : Ref sig .tc := ⟨.hbm, 66, rfl⟩
abbrev main_call5_v5 : Ref sig .tc := ⟨.hbm, 67, rfl⟩
abbrev main_call5_v6 : Ref sig .tc := ⟨.hbm, 68, rfl⟩
abbrev main_call5_c_2 : Ref sig .tc := ⟨.hbm, 69, rfl⟩
abbrev main_call5_v7 : Ref sig .tc := ⟨.hbm, 70, rfl⟩
abbrev main_call5_v8 : Ref sig .tc := ⟨.hbm, 71, rfl⟩
abbrev main_call5_c_3 : Ref sig .tc := ⟨.hbm, 72, rfl⟩
abbrev main_call5_v9 : Ref sig .tc := ⟨.hbm, 73, rfl⟩
abbrev main_call5_v10 : Ref sig .tc := ⟨.hbm, 74, rfl⟩
abbrev main_call5_v11 : Ref sig .tc := ⟨.hbm, 75, rfl⟩
abbrev main_call5_v12 : Ref sig .tc := ⟨.hbm, 76, rfl⟩
abbrev main_call5_v13 : Ref sig .tc := ⟨.hbm, 77, rfl⟩
abbrev main_call5_v14 : Ref sig .tc := ⟨.hbm, 78, rfl⟩
abbrev main_v18 : Ref sig .tc := ⟨.hbm, 79, rfl⟩
abbrev main_c_7 : Ref sig .tc := ⟨.hbm, 80, rfl⟩
abbrev main_call6_v0 : Ref sig .tc := ⟨.hbm, 81, rfl⟩
abbrev main_call6_v1 : Ref sig .tc := ⟨.hbm, 82, rfl⟩
abbrev main_call6_v2 : Ref sig .tc := ⟨.hbm, 83, rfl⟩
abbrev main_call6_v3 : Ref sig .tc := ⟨.hbm, 84, rfl⟩
abbrev main_call6_v4 : Ref sig .tc := ⟨.hbm, 85, rfl⟩
abbrev main_call6_v5 : Ref sig .tc := ⟨.hbm, 86, rfl⟩
abbrev main_call6_v6 : Ref sig .tc := ⟨.hbm, 87, rfl⟩
abbrev main_call6_v7 : Ref sig .tc := ⟨.hbm, 88, rfl⟩
abbrev main_call6_c : Ref sig .tc := ⟨.hbm, 89, rfl⟩
abbrev main_call6_v8 : Ref sig .tc := ⟨.hbm, 90, rfl⟩
abbrev main_call6_v9 : Ref sig .tc := ⟨.hbm, 91, rfl⟩
abbrev main_call6_v10 : Ref sig .tc := ⟨.hbm, 92, rfl⟩
abbrev main_call6_c_0 : Ref sig .tc := ⟨.hbm, 93, rfl⟩
abbrev main_call6_v11 : Ref sig .tc := ⟨.hbm, 94, rfl⟩
abbrev main_call6_v12 : Ref sig .tc := ⟨.hbm, 95, rfl⟩
abbrev main_v19 : Ref sig .tc := ⟨.hbm, 96, rfl⟩
abbrev main_c_8 : Ref sig .tc := ⟨.hbm, 97, rfl⟩
abbrev main_call7_v0 : Ref sig .tc := ⟨.hbm, 98, rfl⟩
abbrev main_call7_c : Ref sig .tc := ⟨.hbm, 99, rfl⟩
abbrev main_call7_v1 : Ref sig .tc := ⟨.hbm, 100, rfl⟩
abbrev main_call7_c_0 : Ref sig .tc := ⟨.hbm, 101, rfl⟩
abbrev main_call7_v2 : Ref sig .tc := ⟨.hbm, 102, rfl⟩
abbrev main_call7_v3 : Ref sig .tc := ⟨.hbm, 103, rfl⟩
abbrev main_call7_v4 : Ref sig .tc := ⟨.hbm, 104, rfl⟩
abbrev main_call7_c_1 : Ref sig .tc := ⟨.hbm, 105, rfl⟩
abbrev main_call7_v5 : Ref sig .tc := ⟨.hbm, 106, rfl⟩
abbrev main_call7_v6 : Ref sig .tc := ⟨.hbm, 107, rfl⟩
abbrev main_call7_c_2 : Ref sig .tc := ⟨.hbm, 108, rfl⟩
abbrev main_call7_v7 : Ref sig .tc := ⟨.hbm, 109, rfl⟩
abbrev main_call7_v8 : Ref sig .tc := ⟨.hbm, 110, rfl⟩
abbrev main_call7_c_3 : Ref sig .tc := ⟨.hbm, 111, rfl⟩
abbrev main_call7_v9 : Ref sig .tc := ⟨.hbm, 112, rfl⟩
abbrev main_call7_v10 : Ref sig .tc := ⟨.hbm, 113, rfl⟩
abbrev main_call7_v11 : Ref sig .tc := ⟨.hbm, 114, rfl⟩
abbrev main_call7_v12 : Ref sig .tc := ⟨.hbm, 115, rfl⟩
abbrev main_call7_v13 : Ref sig .tc := ⟨.hbm, 116, rfl⟩
abbrev main_call7_v14 : Ref sig .tc := ⟨.hbm, 117, rfl⟩
abbrev main_v20 : Ref sig .tc := ⟨.hbm, 118, rfl⟩
abbrev main_c_9 : Ref sig .tc := ⟨.hbm, 119, rfl⟩
abbrev main_v21 : Ref sig .tc := ⟨.hbm, 120, rfl⟩
abbrev main_v22 : Ref sig .tc := ⟨.hbm, 121, rfl⟩
abbrev main_c_10 : Ref sig .tc := ⟨.hbm, 122, rfl⟩
abbrev main_v23 : Ref sig .tc := ⟨.hbm, 123, rfl⟩
abbrev main_v24 : Ref sig .tc := ⟨.hbm, 124, rfl⟩
abbrev main_v25 : Ref sig .tc := ⟨.hbm, 125, rfl⟩
abbrev main_c_11 : Ref sig .tc := ⟨.hbm, 126, rfl⟩
abbrev main_v26 : Ref sig .tc := ⟨.hbm, 127, rfl⟩
abbrev main_v27 : Ref sig .tc := ⟨.hbm, 128, rfl⟩
abbrev main_c_12 : Ref sig .tc := ⟨.hbm, 129, rfl⟩
abbrev main_v28 : Ref sig .tc := ⟨.hbm, 130, rfl⟩
abbrev main_v29 : Ref sig .tc := ⟨.hbm, 131, rfl⟩
abbrev main_v30 : Ref sig .tc := ⟨.hbm, 132, rfl⟩
abbrev main_v31 : Ref sig .tc := ⟨.hbm, 133, rfl⟩
abbrev main_v32 : Ref sig .tc := ⟨.hbm, 134, rfl⟩
abbrev main_v33 : Ref sig .tc := ⟨.hbm, 135, rfl⟩
abbrev main_v34 : Ref sig .tc := ⟨.hbm, 136, rfl⟩

abbrev nD : Nat := 1
abbrev τ : Topo := Topo.v7x

variable {F : FTy → Type} [FloatOps F]

class Facts₀ : Prop where
  bcast_S_S32x32 : S_.BroadcastsInDim S32x32 (![] : Fin 0 → Fin S32x32.rank)
  shapeCasts_S32x32_S1024 : S32x32.ShapeCasts S1024
  natLt_1_32 : 1 < 32
  bcast_S_S_ : S_.BroadcastsInDim S_ (![] : Fin 0 → Fin S_.rank)
  reduceWindows_S1024_S1024_w1024s1p1023_0 : S1024.ReduceWindows (![1024] : Fin 1 → Nat) ![1] ![1023] ![0] S1024
  h_S_ : 0 < S_.numel
  bcast_S_S496 : S_.BroadcastsInDim S496 (![] : Fin 0 → Fin S496.rank)
  bcast_S_S1024 : S_.BroadcastsInDim S1024 (![] : Fin 0 → Fin S1024.rank)
  bcast_S1024_S1024x1_0 : S1024.BroadcastsInDim S1024x1 (![0] : Fin 1 → Fin S1024x1.rank)
  reduceWindows_S496_S496_w496s1p495_0 : S496.ReduceWindows (![496] : Fin 1 → Nat) ![1] ![495] ![0] S496
  bcast_S496_S496x1_0 : S496.BroadcastsInDim S496x1 (![0] : Fin 1 → Fin S496x1.rank)
  concatenates_S496x1_S496x1_S496x2_d1 : Shape.Concatenates [S496x1, S496x1] S496x2 1
  dot_S16384x32x128_S16384x32x128_S16384x32x32_2_2_1_1_0_0_wf : DotDims.WF S16384x32x128 S16384x32x128 S16384x32x32 [2] [2] [1] [1] [0] [0]
  scatter_S496_S1024x1_S1024_n_0_0_1_wf : ScatterDims.WF S496 S1024x1 S1024 [] [0] [0] 1
  gather_S16384x32x32_S496x2_S16384x496_0_12_n_n_12_1_1638411_wf : GatherDims.WF S16384x32x32 S496x2 S16384x496 [0] [1, 2] [] [1, 2] [] 1 ![16384, 1, 1]

variable [Facts₀]

def dot_S16384x32x128_S16384x32x128_S16384x32x32_2_2_1_1_0_0 : DotDims S16384x32x128 S16384x32x128 S16384x32x32 where
  lhsContracting := [2]
  rhsContracting := [2]
  lhsNonContracting := [1]
  rhsNonContracting := [1]
  lhsBatch := [0]
  rhsBatch := [0]
  wf := dot_S16384x32x128_S16384x32x128_S16384x32x32_2_2_1_1_0_0_wf
def scatter_S496_S1024x1_S1024_n_0_0_1 : ScatterDims S496 S1024x1 S1024 where
  updateWindowDims := []
  insertedWindowDims := [0]
  scatterDimsToOperandDims := [0]
  indexVectorDim := 1
  wf := scatter_S496_S1024x1_S1024_n_0_0_1_wf
def gather_S16384x32x32_S496x2_S16384x496_0_12_n_n_12_1_1638411 : GatherDims S16384x32x32 S496x2 S16384x496 where
  offsetDims := [0]
  collapsedSliceDims := [1, 2]
  operandBatchingDims := []
  startIndicesBatchingDims := []
  startIndexMap := [1, 2]
  indexVectorDim := 1
  sliceSizes := ![16384, 1, 1]
  wf := gather_S16384x32x32_S496x2_S16384x496_0_12_n_n_12_1_1638411_wf

class Facts : Prop extends Facts₀ where

variable [Facts]
-- ==== Proof.TriIndex.lean ====
/-
  The strict upper triangle of a 32 × 32 matrix, listed row by row.

  Row i (0 ≤ i ≤ 30) contributes the 31 - i pairs (i, i+1), (i, i+2), …, (i, 31); the rows are laid one after
  the other, so row i starts at position off i = 31 + 30 + … + (32 - i) = i (63 - i) / 2, and off 31 = 496 is the
  number of pairs.  Pair number p sits in the row row p = #{ i < 31 | off (i+1) ≤ p } and in the column
  col p = row p + 1 + (p - off (row p)); its position in the 32 × 32 matrix read row-major is flat p = 32 row p + col p.
-/
import Mathlib.Data.Fin.Basic
import Mathlib.Data.List.Basic

namespace Cert.Tri

/-- Where row i of the triangle starts in the list of pairs. -/
def off (i : Nat) : Nat := i * (63 - i) / 2

/-- The row of pair p: the number of rows that end at or before p. -/
def row (p : Nat) : Nat := ((List.range 31).filter fun i => decide (off (i + 1) ≤ p)).length

/-- The column of pair p. -/
def col (p : Nat) : Nat := row p + 1 + (p - off (row p))

/-- The position of pair p in the matrix read row by row. -/
def flat (p : Nat) : Nat := 32 * row p + col p

theorem off_31 : off 31 = 496 := by decide

/-- Position off i + k, for k < 31 - i, is the pair (i, i + 1 + k). -/
theorem row_col_off_add : ∀ i : Fin 31, ∀ k : Fin 31, k.val < 31 - i.val →
    row (off i.val + k.val) = i.val ∧ col (off i.val + k.val) = i.val + 1 + k.val := by decide +kernel

theorem row_off_add (i k : Nat) (hi : i < 31) (hk : k < 31 - i) : row (off i + k) = i :=
  (row_col_off_add ⟨i, hi⟩ ⟨k, by omega⟩ hk).1

theorem col_off_add (i k : Nat) (hi : i < 31) (hk : k < 31 - i) : col (off i + k) = i + 1 + k :=
  (row_col_off_add ⟨i, hi⟩ ⟨k, by omega⟩ hk).2

/-- Every pair is strictly above the diagonal and inside the matrix, and is found again from its row. -/
theorem row_col_facts : ∀ p : Fin 496, row p.val < 31 ∧ row p.val < col p.val ∧ col p.val < 32
    ∧ off (row p.val) ≤ p.val ∧ p.val < off (row p.val + 1) := by decide +kernel

theorem row_lt (p : Nat) (hp : p < 496) : row p < 32 := by have h : row p < 31 := (row_col_facts ⟨p, hp⟩).1; omega
theorem col_lt (p : Nat) (hp : p < 496) : col p < 32 := (row_col_facts ⟨p, hp⟩).2.2.1
theorem row_lt_col (p : Nat) (hp : p < 496) : row p < col p := (row_col_facts ⟨p, hp⟩).2.1
theorem flat_lt (p : Nat) (hp : p < 496) : flat p < 1024 := by
  have h1 : row p < 31 := (row_col_facts ⟨p, hp⟩).1; have h2 := col_lt p hp; unfold flat; omega

/-- The row of p as an index of a 32-row matrix, and its column. -/
def rowF (p : Fin 496) : Fin 32 := ⟨row p.val, row_lt p.val p.isLt⟩
def colF (p : Fin 496) : Fin 32 := ⟨col p.val, col_lt p.val p.isLt⟩

end Cert.Tri
-- ==== Proof.TriRead.lean ====
/-
  Reading the strict upper triangle out of a stack of 32 × 32 matrices.

  tri v is the stack v : [B, 32, 32] gathered into [B, 496]: entry (b, p) is v (b, row p, col p), the pairs (row, col)
  listed row by row.  The kernel builds it from 31 pieces: piece i is row i of every matrix from column i + 1 on — a
  slice [B, 1, 31 - i] flattened to [B, 31 - i] — placed at columns off i … off i + 30 - i.  Every piece is the
  restriction of tri v to its rectangle.
-/
import Idealize.ShloMosaic.Lib.ValueIdx
import Idealize.ShloMosaic.Lib.Pipeline.Value
import proofs.«158657_j18021682774682_1_alg».proof.Proof.TriIndex

noncomputable section

namespace Cert.TriRead

open Idealize.ShloMosaic Idealize.ShloMosaic.ValueIdx

variable {α : Type} {B : Nat}

/-- The triangle of every matrix of the stack, as [B, 496]. -/
def tri (v : (⟨3, ![B, 32, 32]⟩ : Shape).Idx → α) : (⟨2, ![B, 496]⟩ : Shape).Idx → α :=
  fun y => v (ix3 (y 0) (Cert.Tri.rowF (y 1)) (Cert.Tri.colF (y 1)))

theorem tri_ix2 (v : (⟨3, ![B, 32, 32]⟩ : Shape).Idx → α) (b : Fin B) (p : Fin 496) :
    tri v (ix2 b p) = v (ix3 b (Cert.Tri.rowF p) (Cert.Tri.colF p)) := rfl

/-- At column off i + k of the triangle sits the matrix entry (i, i + 1 + k). -/
theorem tri_at (v : (⟨3, ![B, 32, 32]⟩ : Shape).Idx → α) (y : (⟨2, ![B, 496]⟩ : Shape).Idx) (b : Fin B) (i k : Nat)
    (hi : i < 31) (hk : k < 31 - i) (h0 : (y 0).val = b.val) (h1 : (y 1).val = Cert.Tri.off i + k) :
    tri v y = v (ix3 b (⟨i, by omega⟩ : Fin 32) (⟨i + 1 + k, by omega⟩ : Fin 32)) := by
  unfold tri
  refine congrArg v (funext fun a => ?_)
  match a with
  | ⟨0, _⟩ => exact Fin.ext h0
  | ⟨1, _⟩ => exact Fin.ext (by show Cert.Tri.row (y 1).val = i; rw [h1]; exact Cert.Tri.row_off_add i k hi hk)
  | ⟨2, _⟩ => exact Fin.ext (by show Cert.Tri.col (y 1).val = i + 1 + k; rw [h1]; exact Cert.Tri.col_off_add i k hi hk)

/-- Row i of every matrix from column j on, w entries, flattened to [B, w]: at (b, k) it is the entry (b, i, j + k). -/
theorem rowSlice_apply {w : Nat} (i j : Nat) (v : (⟨3, ![B, 32, 32]⟩ : Shape).Idx → α)
    (hs : (⟨3, ![B, 32, 32]⟩ : Shape).Slices ![0, i, j] ⟨3, ![B, 1, w]⟩)
    (hc : (⟨3, ![B, 1, w]⟩ : Shape).ShapeCasts ⟨2, ![B, w]⟩)
    (b : Fin B) (k : Fin w) (hi : i < 32) (hk : j + k.val < 32) :
    shapeCast ⟨2, ![B, w]⟩ (extractStridedSlice ⟨3, ![B, 1, w]⟩ ![0, i, j] v hs) hc (ix2 b k)
      = v (ix3 b (⟨i, hi⟩ : Fin 32) (⟨j + k.val, hk⟩ : Fin 32)) := by
  refine (shapeCast_apply _ hc (ix2 b k) (ix3 b (0 : Fin 1) k) ?_).trans ?_
  · rw [Shape.rowMajor_val_three, Shape.rowMajor_val_two]
    show (b.val * 1 + 0) * w + k.val = b.val * w + k.val
    rw [Nat.mul_one, Nat.add_zero]
  · refine extractStridedSlice_apply _ v hs _ _ (fun a => ?_)
    match a with
    | ⟨0, _⟩ => show b.val = 0 + b.val; omega
    | ⟨1, _⟩ => show i = i + 0; omega
    | ⟨2, _⟩ => show j + k.val = j + k.val; rfl

/-- Piece i of the triangle: the flattened row slice, placed at columns off i on, is tri v on its rectangle. -/
theorem piece_eq (w i j o : Nat) (hi : i < 31) (hw : w = 31 - i) (hj : j = i + 1) (ho : o = Cert.Tri.off i)
    (v : (⟨3, ![B, 32, 32]⟩ : Shape).Idx → α)
    (hs : (⟨3, ![B, 32, 32]⟩ : Shape).Slices ![0, i, j] ⟨3, ![B, 1, w]⟩)
    (hc : (⟨3, ![B, 1, w]⟩ : Shape).ShapeCasts ⟨2, ![B, w]⟩)
    (inb : ∀ a, ![0, o] a + ![B, w] a ≤ (⟨2, ![B, 496]⟩ : Shape).size a)
    (xx : (⟨2, ![B, w]⟩ : Shape).Idx) :
    shapeCast ⟨2, ![B, w]⟩ (extractStridedSlice ⟨3, ![B, 1, w]⟩ ![0, i, j] v hs) hc xx
      = tri v ((Rect.unit (s := ⟨2, ![B, 496]⟩) ![0, o] ![B, w] inb).emb xx) := by
  subst hw hj ho
  obtain ⟨b, k, rfl⟩ : ∃ (b : Fin B) (k : Fin (31 - i)), xx = ix2 b k := ⟨xx 0, xx 1, eq_ix2 xx⟩
  have hk : k.val < 31 - i := k.isLt
  rw [rowSlice_apply i (i + 1) v hs hc b k (by omega) (by omega)]
  exact (tri_at v _ b i k.val hi hk (by show 0 + 1 * b.val = b.val; omega)
    (by show Cert.Tri.off i + 1 * k.val = Cert.Tri.off i + k.val; omega)).symm

end Cert.TriRead

end
-- ==== Proof.KernelBlock.lean ====
/-
  What one grid step of the kernel leaves in its output block.

  The body loads its block x : [512, 32, 128], forms the stack of Gram matrices P = x xᵀ : [512, 32, 32] and stores 31
  pieces into the output block [512, 496]: piece i is row i of every matrix from column i + 1 on, at columns
  off i … of the block.  Each piece is the restriction of the triangle tri P to its rectangle, and the pieces cover the
  block, so the block ends holding tri P.
-/
import proofs.«158657_j18021682774682_1_alg».proof.Proof.Gen.KernelIdeal.Frame
import proofs.«158657_j18021682774682_1_alg».proof.Proof.TriRead
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Block

open Cert.KernelIdeal Cert.KernelIdeal.Gen Cert.TriRead

variable {F : FTy → Type} [FloatOps F]

theorem hz3 : (![0, 0, 0] : Fin 3 → Nat) = fun _ => 0 := funext fun a => by fin_cases a <;> rfl

/-- Every piece the body stores is the triangle of the Gram stack on the piece's rectangle. -/
theorem pieces_eq (c : Dev nD) (i : grid0.Coords) (a1 : Memref sig .tc .vmem S512x32x128 .f32) (h1 : a1.IsWhole)
    (a2 : Memref sig .tc .vmem S512x496 .f32) (h2 : a2.IsWhole) (x : Vec F S512x32x128 .f32) :
    ∀ p ∈ (kernelRun0_A c i a1 h1 a2 h2 x).1, ∀ xx : p.1.shape.Idx, p.2 xx = tri (k0_pay3 x) (p.1.emb xx) := by
  unfold kernelRun0_A
  dsimp only
  sl_unfold_words
  simp only [View.readAt_eq_ld, h1.read_unread, View.ld_unit_zero (S := S512x32x128) hz3]
  intro p hp
  simp only [List.mem_cons, List.mem_nil_iff, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  · exact piece_eq 1 30 31 495 (by omega) (by omega) (by omega) (by decide) (k0_pay3 x) slices_S512x32x32_o0_30_31_S512x1x1 shapeCasts_S512x1x1_S512x1 inb_S512x496_S512x1_0_495
  · exact piece_eq 2 29 30 493 (by omega) (by omega) (by omega) (by decide) (k0_pay3 x) slices_S512x32x32_o0_29_30_S512x1x2 shapeCasts_S512x1x2_S512x2 inb_S512x496_S512x2_0_493
  · exact piece_eq 3 28 29 490 (by omega) (by omega) (by omega) (by decide) (k0_pay3 x) slices_S512x32x32_o0_28_29_S512x1x3 shapeCasts_S512x1x3_S512x3 inb_S512x496_S512x3_0_490
  · exact piece_eq 4 27 28 486 (by omega) (by omega) (by omega) (by decide) (k0_pay3 x) slices_S512x32x32_o0_27_28_S512x1x4 shapeCasts_S512x1x4_S512x4 inb_S512x496_S512x4_0_486
  · exact piece_eq 5 26 27 481 (by omega) (by omega) (by omega) (by decide) (k0_pay3 x) slices_S512x32x32_o0_26_27_S512x1x5 shapeCasts_S512x1x5_S512x5 inb_S512x496_S512x5_0_481
  · exact piece_eq 6 25 26 475 (by omega) (by omega) (by omega) (by decide) (k0_pay3 x) slices_S512x32x32_o0_25_26_S512x1x6 shapeCasts_S512x1x6_S512x6 inb_S512x496_S512x6_0_475
  · exact piece_eq 7 24 25 468 (by omega) (by omega) (by omega) (by decide) (k0_pay3 x) slices_S512x32x32_o0_24_25_S512x1x7 shapeCasts_S512x1x7_S512x7 inb_S512x496_S512x7_0_468
  · exact piece_eq 8 23 24 460 (by omega) (by omega) (by omega) (by decide) (k0_pay3 x) slices_S512x32x32_o0_23_24_S512x1x8 shapeCasts_S512x1x8_S512x8 inb_S512x496_S512x8_0_460
  · exact piece_eq 9 22 23 451 (by omega) (by omega) (by omega) (by decide) (k0_pay3 x) slices_S512x32x32_o0_22_23_S512x1x9 shapeCasts_S512x1x9_S512x9 inb_S512x496_S512x9_0_451
  · exact piece_eq 10 21 22 441 (by omega) (by omega) (by omega) (by decide) (k0_pay3 x) slices_S512x32x32_o0_21_22_S512x1x10 shapeCasts_S512x1x10_S512x10 inb_S512x496_S512x10_0_441
  · exact piece_eq 11 20 21 430 (by omega) (by omega) (by omega) (by decide) (k0_pay3 x) slices_S512x32x32_o0_20_21_S512x1x11 shapeCasts_S512x1x11_S512x11 inb_S512x496_S512x11_0_430
  · exact piece_eq 12 19 20 418 (by omega) (by omega) (by omega) (by decide) (k0_pay3 x) slices_S512x32x32_o0_19_20_S512x1x12 shapeCasts_S512x1x12_S512x12 inb_S512x496_S512x12_0_418
  · exact piece_eq 13 18 19 405 (by omega) (by omega) (by omega) (by decide) (k0_pay3 x) slices_S512x32x32_o0_18_19_S512x1x13 shapeCasts_S512x1x13_S512x13 inb_S512x496_S512x13_0_405
  · exact piece_eq 14 17 18 391 (by omega) (by omega) (by omega) (by decide) (k0_pay3 x) slices_S512x32x32_o0_17_18_S512x1x14 shapeCasts_S512x1x14_S512x14 inb_S512x496_S512x14_0_391
  · exact piece_eq 15 16 17 376 (by omega) (by omega) (by omega) (by decide) (k0_pay3 x) slices_S512x32x32_o0_16_17_S512x1x15 shapeCasts_S512x1x15_S512x15 inb_S512x496_S512x15_0_376
  · exact piece_eq 16 15 16 360 (by omega) (by omega) (by omega) (by decide) (k0_pay3 x) slices_S512x32x32_o0_15_16_S512x1x16 shapeCasts_S512x1x16_S512x16 inb_S512x496_S512x16_0_360
  · exact piece_eq 17 14 15 343 (by omega) (by omega) (by omega) (by decide) (k0_pay3 x) slices_S512x32x32_o0_14_15_S512x1x17 shapeCasts_S512x1x17_S512x17 inb_S512x496_S512x17_0_343
  · exact piece_eq 18 13 14 325 (by omega) (by omega) (by omega) (by decide) (k0_pay3 x) slices_S512x32x32_o0_13_14_S512x1x18 shapeCasts_S512x1x18_S512x18 inb_S512x496_S512x18_0_325
  · exact piece_eq 19 12 13 306 (by omega) (by omega) (by omega) (by decide) (k0_pay3 x) slices_S512x32x32_o0_12_13_S512x1x19 shapeCasts_S512x1x19_S512x19 inb_S512x496_S512x19_0_306
  · exact piece_eq 20 11 12 286 (by omega) (by omega) (by omega) (by decide) (k0_pay3 x) slices_S512x32x32_o0_11_12_S512x1x20 shapeCasts_S512x1x20_S512x20 inb_S512x496_S512x20_0_286
  · exact piece_eq 21 10 11 265 (by omega) (by omega) (by omega) (by decide) (k0_pay3 x) slices_S512x32x32_o0_10_11_S512x1x21 shapeCasts_S512x1x21_S512x21 inb_S512x496_S512x21_0_265
  · exact piece_eq 22 9 10 243 (by omega) (by omega) (by omega) (by decide) (k0_pay3 x) slices_S512x32x32_o0_9_10_S512x1x22 shapeCasts_S512x1x22_S512x22 inb_S512x496_S512x22_0_243
  · exact piece_eq 23 8 9 220 (by omega) (by omega) (by omega) (by decide) (k0_pay3 x) slices_S512x32x32_o0_8_9_S512x1x23 shapeCasts_S512x1x23_S512x23 inb_S512x496_S512x23_0_220
  · exact piece_eq 24 7 8 196 (by omega) (by omega) (by omega) (by decide) (k0_pay3 x) slices_S512x32x32_o0_7_8_S512x1x24 shapeCasts_S512x1x24_S512x24 inb_S512x496_S512x24_0_196
  · exact piece_eq 25 6 7 171 (by omega) (by omega) (by omega) (by decide) (k0_pay3 x) slices_S512x32x32_o0_6_7_S512x1x25 shapeCasts_S512x1x25_S512x25 inb_S512x496_S512x25_0_171
  · exact piece_eq 26 5 6 145 (by omega) (by omega) (by omega) (by decide) (k0_pay3 x) slices_S512x32x32_o0_5_6_S512x1x26 shapeCasts_S512x1x26_S512x26 inb_S512x496_S512x26_0_145
  · exact piece_eq 27 4 5 118 (by omega) (by omega) (by omega) (by decide) (k0_pay3 x) slices_S512x32x32_o0_4_5_S512x1x27 shapeCasts_S512x1x27_S512x27 inb_S512x496_S512x27_0_118
  · exact piece_eq 28 3 4 90 (by omega) (by omega) (by omega) (by decide) (k0_pay3 x) slices_S512x32x32_o0_3_4_S512x1x28 shapeCasts_S512x1x28_S512x28 inb_S512x496_S512x28_0_90
  · exact piece_eq 29 2 3 61 (by omega) (by omega) (by omega) (by decide) (k0_pay3 x) slices_S512x32x32_o0_2_3_S512x1x29 shapeCasts_S512x1x29_S512x29 inb_S512x496_S512x29_0_61
  · exact piece_eq 30 1 2 31 (by omega) (by omega) (by omega) (by decide) (k0_pay3 x) slices_S512x32x32_o0_1_2_S512x1x30 shapeCasts_S512x1x30_S512x30 inb_S512x496_S512x30_0_31
  · exact piece_eq 31 0 1 0 (by omega) (by omega) (by omega) (by decide) (k0_pay3 x) slices_S512x32x32_o0_0_1_S512x1x31 shapeCasts_S512x1x31_S512x31 inb_S512x496_S512x31_0_0

/-- The output block after the body: the triangle of the Gram stack of the loaded block. -/
theorem out_eq (c : Dev nD) (i : grid0.Coords) (a1 : Memref sig .tc .vmem S512x32x128 .f32) (h1 : a1.IsWhole)
    (a2 : Memref sig .tc .vmem S512x496 .f32) (h2 : a2.IsWhole) (x : Vec F S512x32x128 .f32) :
    out0_A_1 c i a1 h1 a2 h2 x = tri (k0_pay3 x) := by
  unfold out0_A_1
  rw [View.read_writes_eq_canon _ _ _ (cover0_A_1 c i a1 h1 a2 h2 x)]
  funext y
  exact View.canon_apply_of_pieces (tri (k0_pay3 x)) _ (pieces_eq c i a1 h1 a2 h2 x) y (cover0_A_1 c i a1 h1 a2 h2 x y)

end Cert.KernelIdeal.Block

end
-- ==== Proof.GramStack.lean ====
/-
  A stack of Gram matrices read at an index.

  For a stack A of G matrices of shape m × k, the product of each matrix with its own transpose — a contraction of
  the last axes of two copies of the stack, the first axis a batch axis — has at (g, a, b) the value
  ∑ c, A (g, a, c) * B (g, b, c).  This holds at the ideal values both for the kernel's matrix unit started from a
  zero accumulator and for the host's dot_general.
-/
import Idealize.ShloMosaic.Lib.ValueIdx
import Idealize.ShloMosaic.PureOps.Ideal.Laws

noncomputable section

namespace Cert.Gram

open Idealize.ShloMosaic Idealize.ShloMosaic.ValueIdx

variable {G m k : Nat}

/-- The dimension numbers: contract axis 2 with axis 2, free axis 1 of each side, batch axis 0. -/
abbrev dims (w : DotDims.WF ⟨3, ![G, m, k]⟩ ⟨3, ![G, m, k]⟩ ⟨3, ![G, m, m]⟩ [2] [2] [1] [1] [0] [0]) :
    DotDims ⟨3, ![G, m, k]⟩ ⟨3, ![G, m, k]⟩ ⟨3, ![G, m, m]⟩ := ⟨[2], [2], [1], [1], [0], [0], w⟩

/-- The left operand of the product at (g, a, b) and contraction position c is read at (g, a, c). -/
theorem lhsIdx_eq (w : DotDims.WF ⟨3, ![G, m, k]⟩ ⟨3, ![G, m, k]⟩ ⟨3, ![G, m, m]⟩ [2] [2] [1] [1] [0] [0])
    (g : Fin G) (a b : Fin m) (c : Fin k) :
    (dims w).lhsIdx (ix3 g a b) ((contrEquiv1 (dims w) k rfl rfl).symm c) = ix3 g a c := by
  have c3 := contrEquiv1_symm_val (dims w) k rfl rfl c
  funext ax; apply Fin.ext
  match ax with
  | ⟨0, _⟩ => simp [DotDims.lhsIdx]; rfl
  | ⟨1, _⟩ => simp [DotDims.lhsIdx]; rfl
  | ⟨2, _⟩ => simp [DotDims.lhsIdx]; exact c3

/-- The right operand is read at (g, b, c). -/
theorem rhsIdx_eq (w : DotDims.WF ⟨3, ![G, m, k]⟩ ⟨3, ![G, m, k]⟩ ⟨3, ![G, m, m]⟩ [2] [2] [1] [1] [0] [0])
    (g : Fin G) (a b : Fin m) (c : Fin k) :
    (dims w).rhsIdx (ix3 g a b) ((contrEquiv1 (dims w) k rfl rfl).symm c) = ix3 g b c := by
  have c3 := contrEquiv1_symm_val (dims w) k rfl rfl c
  funext ax; apply Fin.ext
  match ax with
  | ⟨0, _⟩ => simp [DotDims.rhsIdx]; rfl
  | ⟨1, _⟩ => simp [DotDims.rhsIdx]; rfl
  | ⟨2, _⟩ => simp [DotDims.rhsIdx]; exact c3

/-- The kernel's matrix product into a zero accumulator, at an index. -/
theorem matmul_apply {φ₁ φ₂ : FTy}
    (w : DotDims.WF ⟨3, ![G, m, k]⟩ ⟨3, ![G, m, k]⟩ ⟨3, ![G, m, m]⟩ [2] [2] [1] [1] [0] [0])
    (prec : Option ContractPrecision) (A : FVec Ideal ⟨3, ![G, m, k]⟩ φ₁) (B : FVec Ideal ⟨3, ![G, m, k]⟩ φ₂)
    (g : Fin G) (a b : Fin m) :
    FloatOps.matmul (dims w) prec A B (constant (F := Ideal) ⟨3, ![G, m, m]⟩ .f32 0x00000000#32) (ix3 g a b)
      = ∑ c : Fin k, A (ix3 g a c) * B (ix3 g b c) := by
  rw [Ideal.matmul_constant_zero_apply, ← Equiv.sum_comp (contrEquiv1 (dims w) k rfl rfl).symm]
  refine Finset.sum_congr rfl fun c _ => ?_
  rw [lhsIdx_eq, rhsIdx_eq]

/-- The host's dot_general, at an index. -/
theorem dotGeneral_apply {φ₁ φ₂ : FTy}
    (w : DotDims.WF ⟨3, ![G, m, k]⟩ ⟨3, ![G, m, k]⟩ ⟨3, ![G, m, m]⟩ [2] [2] [1] [1] [0] [0])
    (prec : Option ContractPrecision) (A : FVec Ideal ⟨3, ![G, m, k]⟩ φ₁) (B : FVec Ideal ⟨3, ![G, m, k]⟩ φ₂)
    (g : Fin G) (a b : Fin m) :
    Host.dotGeneral (dims w) prec A B (ix3 g a b) = ∑ c : Fin k, A (ix3 g a c) * B (ix3 g b c) := by
  show FloatOps.dotGeneral _ prec _ A B (ix3 g a b) = _
  rw [Ideal.dotGeneral_apply, ← Equiv.sum_comp (contrEquiv1 (dims w) k rfl rfl).symm]
  refine Finset.sum_congr rfl fun c _ => ?_
  rw [lhsIdx_eq, rhsIdx_eq]

end Cert.Gram

end
-- ==== Proof.KernelValue.lean ====
/-
  The kernel's result array, at the ideal values.

  Grid step t handles rows 512 t … 512 t + 511 of the argument x : [16384, 32, 128]: it loads that block, forms the stack of
  Gram matrices of its rows and writes their strict upper triangles to rows 512 t … of the result [16384, 496].  Since a
  row's Gram matrix depends only on that row, block t of the result is block t of ONE function of the whole argument,

      result (b, p) = ∑ d, x (b, row p, d) * x (b, col p, d),

  and the 32 blocks cover the result array.
-/
import proofs.«158657_j18021682774682_1_alg».proof.Proof.Gen.KernelIdeal.Value
import proofs.«158657_j18021682774682_1_alg».proof.Proof.KernelBlock
import proofs.«158657_j18021682774682_1_alg».proof.Proof.GramStack

set_option maxRecDepth 16384

noncomputable section

open Idealize.ShloMosaic Idealize.ShloMosaic.TcCoe Idealize.SL.Sem Idealize.ShloMosaic.ValueIdx
open Idealize.ShloMosaic.Pipeline (Dat)

namespace Cert.Spec

/-- The stack of Gram matrices of the rows of x: entry (b, n, n') is ∑ d, x (b, n, d) * x (b, n', d). -/
def gram {B : Nat} (x : (⟨3, ![B, 32, 128]⟩ : Shape).Idx → EReal) : (⟨3, ![B, 32, 32]⟩ : Shape).Idx → EReal :=
  fun j => ∑ d : Fin 128, x (ix3 (j 0) (j 1) d) * x (ix3 (j 0) (j 2) d)

/-- The result both programs compute: the strict upper triangles of the Gram matrices, row by row. -/
def result {B : Nat} (x : (⟨3, ![B, 32, 128]⟩ : Shape).Idx → EReal) : (⟨2, ![B, 496]⟩ : Shape).Idx → EReal :=
  Cert.TriRead.tri (gram x)

end Cert.Spec

namespace Cert.KernelIdeal.KValue

open Cert.KernelIdeal Cert.KernelIdeal.Gen Cert.TriRead Cert.Spec

variable (m : (ℓ : Loc nD τ sig) → Buf (Elt Ideal) ℓ) (ρ : Dev nD → PrngReg)

/-- The body's matrix product of the loaded block with itself (the change of format on the way in is the identity at the
    ideal values), at an index. -/
theorem pay3_apply (x0 : Vec Ideal S512x32x128 .f32) (b : Fin 512) (n n' : Fin 32) :
    k0_pay3 (F := Ideal) x0 (ix3 b n n') = ∑ d : Fin 128, x0 (ix3 b n d) * x0 (ix3 b n' d) := by
  unfold k0_pay3
  exact Cert.Gram.matmul_apply dot_S512x32x128_S512x32x128_S512x32x32_2_2_1_1_0_0_wf none _ _ b n n'

/-- One block: if the loaded block x0 is rows q·512 … of X, the triangle of its Gram stack at row (y 0) is the result of X
    at row q·512 + (y 0). -/
theorem block_eq (x0 : Vec Ideal S512x32x128 .f32) (X : S16384x32x128.Idx → EReal) (q : Nat)
    (hx : ∀ (z : S512x32x128.Idx) (Z : S16384x32x128.Idx), (Z 0).val = q * 512 + (z 0).val → (Z 1).val = (z 1).val →
      (Z 2).val = (z 2).val → x0 z = X Z)
    (y : S512x496.Idx) (Y : S16384x496.Idx) (hY0 : (Y 0).val = q * 512 + (y 0).val) (hY1 : (Y 1).val = (y 1).val) :
    tri (k0_pay3 (F := Ideal) x0) y = result X Y := by
  obtain ⟨b, p, rfl⟩ : ∃ (b : Fin 512) (p : Fin 496), y = ix2 b p := ⟨y 0, y 1, eq_ix2 y⟩
  obtain ⟨b', p', rfl⟩ : ∃ (b' : Fin 16384) (p' : Fin 496), Y = ix2 b' p' := ⟨Y 0, Y 1, eq_ix2 Y⟩
  have hb : b'.val = q * 512 + b.val := hY0
  obtain rfl : p' = p := Fin.ext hY1
  rw [tri_ix2, pay3_apply]
  show _ = gram X (ix3 b' (Cert.Tri.rowF p') (Cert.Tri.colF p'))
  unfold gram
  refine Finset.sum_congr rfl fun d _ => ?_
  rw [hx (ix3 b (Cert.Tri.rowF p') d) (ix3 b' (Cert.Tri.rowF p') d) hb rfl rfl,
    hx (ix3 b (Cert.Tri.colF p') d) (ix3 b' (Cert.Tri.colF p') d) hb rfl rfl]

/-- The printed index maps over the 32 grid steps: step t reads block (t, 0, 0) and writes block (t, 0). -/
theorem idx_facts : ∀ t : Fin cfg0.N, win0_0.index t (0 : Fin 3) = win0_1.index t (0 : Fin 2)
    ∧ win0_0.index t (1 : Fin 3) = 0 ∧ win0_0.index t (2 : Fin 3) = 0
    ∧ win0_1.index t (1 : Fin 2) = 0 ∧ win0_1.index t (0 : Fin 2) ≤ 31 :=
  (by decide +kernel : ∀ t : Fin grid0.N, _)

/-- Every block row of the result is some step's. -/
theorem idx_onto : ∀ q : Fin 32, ∃ t : Fin cfg0.N, win0_1.index t = ![q.val, 0] :=
  (by decide +kernel : ∀ q : Fin 32, ∃ t : Fin grid0.N, win0_1.index t = ![q.val, 0])

/-- What step t writes back is block t of the result of the argument array. -/
theorem flushed_eq (c : Dev nD) (t : Fin cfg0.N) :
    (dats m 0 c).flushed 1 t = ((cfg0.win 1).blk t).view.read (Elt Ideal) (result (V m c main_arg0)) := by
  rw [Cert.KernelIdeal.Value.flushed1_A, Cert.KernelIdeal.Block.out_eq]
  obtain ⟨e0, e1, e2, e3, e4⟩ := idx_facts t
  funext j
  show tri (k0_pay3 (F := Ideal) (iblk m c 0 t)) j = result (V m c main_arg0) (((cfg0.win 1).blk t).view.emb j)
  refine block_eq (iblk m c 0 t) (V m c main_arg0) (win0_1.index t (0 : Fin 2)) ?_ j (((cfg0.win 1).blk t).view.emb j) ?_ ?_
  · intro z Z h0 h1 h2
    show V m c main_arg0 (((cfg0.win 0).blk t).view.emb z) = V m c main_arg0 Z
    refine congrArg _ (funext fun a => Fin.ext ?_)
    match a with
    | ⟨0, _⟩ => show win0_0.index t (0 : Fin 3) * 512 + 1 * (z 0).val = (Z 0).val; omega
    | ⟨1, _⟩ => show win0_0.index t (1 : Fin 3) * 32 + 1 * (z 1).val = (Z 1).val; omega
    | ⟨2, _⟩ => show win0_0.index t (2 : Fin 3) * 128 + 1 * (z 2).val = (Z 2).val; omega
  · show win0_1.index t (0 : Fin 2) * 512 + 1 * (j 0).val = win0_1.index t (0 : Fin 2) * 512 + (j 0).val; omega
  · show win0_1.index t (1 : Fin 2) * 496 + 1 * (j 1).val = (j 1).val; omega

/-- An index of the result is in step t's block iff each coordinate is in the block's range. -/
theorem mem_blk (t : Fin cfg0.N) (i : S16384x496.Idx) :
    i ∈ ((cfg0.win 1).blk t).view.set ↔ ∀ a : Fin 2, win0_1.index t a * S512x496.size a ≤ (i a).val ∧ (i a).val < win0_1.index t a * S512x496.size a + S512x496.size a := by
  show i ∈ ((View.whole main_v0).slice (win0_1.rect t)).set ↔ _
  rw [View.set_slice_whole, Rect.mem_set_unit]
  exact Iff.rfl

/-- The blocks cover the result: row r is in the block of the step with block index r / 512. -/
theorem cover (i : S16384x496.Idx) : ∃ t : Fin cfg0.N, (cfg0.win 1).flush t = true ∧ i ∈ ((cfg0.win 1).blk t).view.set := by
  have hi0 : (i 0).val < 16384 := (i 0).isLt
  have hi1 : (i 1).val < 496 := (i 1).isLt
  obtain ⟨t, ht⟩ := idx_onto ⟨(i 0).val / 512, by omega⟩
  have q0 : win0_1.index t (0 : Fin 2) = (i 0).val / 512 := congrFun ht 0
  have q1 : win0_1.index t (1 : Fin 2) = 0 := congrFun ht 1
  refine ⟨t, flush0_1 t, ?_⟩
  rw [mem_blk]
  intro a
  match a with
  | ⟨0, _⟩ => show win0_1.index t (0 : Fin 2) * 512 ≤ (i 0).val ∧ (i 0).val < win0_1.index t (0 : Fin 2) * 512 + 512; omega
  | ⟨1, _⟩ => show win0_1.index t (1 : Fin 2) * 496 ≤ (i 1).val ∧ (i 1).val < win0_1.index t (1 : Fin 2) * 496 + 496; omega

/-- The result array after the run. -/
theorem final (c : Dev nD) : (dats m 0 c).arrAt 1 cfg0.N = result (V m c main_arg0) :=
  (dats m 0 c).arrAt_eq_of_cover 1 (result (V m c main_arg0)) (fun t _ => flushed_eq m c t) cover

/-- The kernel's run: every weakly fair execution terminates with the result array at `result` of the argument, the
    argument unchanged. -/
theorem run : θ_run defs (onTc (τ := τ) (main (F := Ideal))) ⟨m, fun _ => 0, ρ⟩ fun r => ∀ c : Dev nD,
      r.2.mem ((c : Thread nD τ).loc main_v0) = result (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Cert.KernelIdeal.Value.run_blocks m ρ)

end Cert.KernelIdeal.KValue

end
-- ==== Proof.RefOps.lean ====
/-
  The reference program as a straight line.  Its entry function is a sequence of whole-array operations once the
  functions it calls are unfolded at their call sites: the batched product of the argument with itself, then an
  integer computation that lists the positions of the strict upper triangle of a 32 × 32 matrix (a mask of the
  triangle, its running count, a histogram of the running count and the running count of that, then quotient and
  remainder by 32), and last the gather of the product at those (row, column) pairs.  This file lists those
  operations in order, shows that the entry function is exactly that list, and states the run: every weakly fair
  execution terminates with each buffer at the fold of the operations over the launch contents.
-/
import proofs.«158657_j18021682774682_1_alg».proof.ReferenceIdeal
import proofs.«158657_j18021682774682_1_alg».proof.Proof.Gen.ReferenceIdeal
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F]

/-- The entry function's 136 operations, in order, each called function's operations in the place of its call over
    that call's own buffers: the upper-triangle mask (9), the running count of the mask (5), the clamp from below
    (3), the second running count (3), the two quotients (16 each) and the two remainders (21 each), and around
    them the entry function's own 47. -/
abbrev ops : List (HloOp τ sig (Elt F)) :=
  [ StableHlo.binary main_arg0 main_arg0 main_v0 ((fun l r => Host.dotGeneral dot_S16384x32x128_S16384x32x128_S16384x32x32_2_2_1_1_0_0 none l r) : (⟨S16384x32x128, .f32⟩ : BufTy).Contents (Elt F) → (⟨S16384x32x128, .f32⟩ : BufTy).Contents (Elt F) → (⟨S16384x32x32, .f32⟩ : BufTy).Contents (Elt F)),
    StableHlo.nullary main_cst (constant S_ .f32 0x3F800000#32),
    StableHlo.unary main_cst main_v1 (broadcastInDim S32x32 ![] bcast_S_S32x32 : (⟨S_, .f32⟩ : BufTy).Contents (Elt F) → (⟨S32x32, .f32⟩ : BufTy).Contents (Elt F)),
    StableHlo.TRef.nullary main_call0.v0 (iotaInDim S32x32 32 0),
    StableHlo.TRef.nullary main_call0.c (constantI S_ 32 0#32),
    StableHlo.TRef.unary main_call0.c main_call0.v1 (broadcastInDim S32x32 ![] bcast_S_S32x32),
    StableHlo.TRef.binary main_call0.v0 main_call0.v1 main_call0.v2 addi,
    StableHlo.TRef.nullary main_call0.v3 (iotaInDim S32x32 32 1),
    StableHlo.TRef.binary main_call0.v2 main_call0.v3 main_call0.v4 (cmpi .sge),
    StableHlo.TRef.nullary main_call0.cst (constant S_ .f32 0x00000000#32),
    StableHlo.TRef.unary main_call0.cst main_call0.v5 (broadcastInDim S32x32 ![] bcast_S_S32x32),
    StableHlo.TRef.ternary main_call0.v4 main_call0.v5 (.of main_v1 : StableHlo.TRef sig ⟨S32x32, .f32⟩) main_call0.v6 select,
    StableHlo.nullary main_cst_0 (constant S_ .f32 0x00000000#32),
    StableHlo.unary main_cst_0 main_v3 (broadcastInDim S32x32 ![] bcast_S_S32x32 : (⟨S_, .f32⟩ : BufTy).Contents (Elt F) → (⟨S32x32, .f32⟩ : BufTy).Contents (Elt F)),
    StableHlo.binary main_v2 main_v3 main_v4 (cmpf .une : (⟨S32x32, .f32⟩ : BufTy).Contents (Elt F) → (⟨S32x32, .f32⟩ : BufTy).Contents (Elt F) → (⟨S32x32, .i1⟩ : BufTy).Contents (Elt F)),
    StableHlo.TRef.reshape (.of main_v4 : StableHlo.TRef sig ⟨S32x32, .i1⟩) main_call1.v0 rfl shapeCasts_S32x32_S1024,
    StableHlo.TRef.unary main_call1.v0 main_call1.v1 (extui 32 · natLt_1_32),
    StableHlo.TRef.nullary main_call1.call0.c (constantI S_ 32 0#32),
    StableHlo.TRef.unary main_call1.call0.c main_call1.call0.v0 (broadcastInDim S_ ![] bcast_S_S_),
    StableHlo.TRef.binary main_call1.v1 main_call1.call0.v0 main_call1.call0.v1 (fun x v => Host.reduceWindow IntOp.addi ![1024] ![1] ![1023] ![0] x v reduceWindows_S1024_S1024_w1024s1p1023_0 h_S_),
    StableHlo.nullary main_c (constantI S_ 32 0#32),
    StableHlo.unary main_c main_v6 (broadcastInDim S496 ![] bcast_S_S496 : (⟨S_, .i32⟩ : BufTy).Contents (Elt F) → (⟨S496, .i32⟩ : BufTy).Contents (Elt F)),
    StableHlo.nullary main_c_1 (constantI S_ 32 0#32),
    StableHlo.TRef.unary (.of main_c_1 : StableHlo.TRef sig ⟨S_, .i32⟩) main_call2.v0 id,
    StableHlo.TRef.unary main_call2.v0 main_call2.v1 (broadcastInDim S1024 ![] bcast_S_S1024),
    StableHlo.TRef.binary main_call2.v1 (.of main_v5 : StableHlo.TRef sig ⟨S1024, .i32⟩) main_call2.v2 maxsi,
    StableHlo.nullary main_c_2 (constantI S_ 32 0#32),
    StableHlo.unary main_c_2 main_v8 (broadcastInDim S1024 ![] bcast_S_S1024 : (⟨S_, .i32⟩ : BufTy).Contents (Elt F) → (⟨S1024, .i32⟩ : BufTy).Contents (Elt F)),
    StableHlo.binary main_v7 main_v8 main_v9 (cmpi .slt : (⟨S1024, .i32⟩ : BufTy).Contents (Elt F) → (⟨S1024, .i32⟩ : BufTy).Contents (Elt F) → (⟨S1024, .i1⟩ : BufTy).Contents (Elt F)),
    StableHlo.nullary main_c_3 (constantI S_ 32 496#32),
    StableHlo.unary main_c_3 main_v10 (broadcastInDim S1024 ![] bcast_S_S1024 : (⟨S_, .i32⟩ : BufTy).Contents (Elt F) → (⟨S1024, .i32⟩ : BufTy).Contents (Elt F)),
    StableHlo.binary main_v7 main_v10 main_v11 (addi : (⟨S1024, .i32⟩ : BufTy).Contents (Elt F) → (⟨S1024, .i32⟩ : BufTy).Contents (Elt F) → (⟨S1024, .i32⟩ : BufTy).Contents (Elt F)),
    StableHlo.ternary main_v9 main_v11 main_v7 main_v12 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    StableHlo.unary main_v12 main_v13 (broadcastInDim S1024x1 ![0] bcast_S1024_S1024x1_0 : (⟨S1024, .i32⟩ : BufTy).Contents (Elt F) → (⟨S1024x1, .i32⟩ : BufTy).Contents (Elt F)),
    StableHlo.nullary main_c_4 (constantI S_ 32 1#32),
    StableHlo.unary main_c_4 main_v14 (broadcastInDim S1024 ![] bcast_S_S1024 : (⟨S_, .i32⟩ : BufTy).Contents (Elt F) → (⟨S1024, .i32⟩ : BufTy).Contents (Elt F)),
    StableHlo.ternary main_v6 main_v13 main_v14 main_v15 ((fun x i u => Host.scatter scatter_S496_S1024x1_S1024_n_0_0_1 IntOp.addi x i u) : (⟨S496, .i32⟩ : BufTy).Contents (Elt F) → (⟨S1024x1, .i32⟩ : BufTy).Contents (Elt F) → (⟨S1024, .i32⟩ : BufTy).Contents (Elt F) → (⟨S496, .i32⟩ : BufTy).Contents (Elt F)),
    StableHlo.TRef.nullary main_call3.call0.c (constantI S_ 32 0#32),
    StableHlo.TRef.unary main_call3.call0.c main_call3.call0.v0 (broadcastInDim S_ ![] bcast_S_S_),
    StableHlo.TRef.binary (.of main_v15 : StableHlo.TRef sig ⟨S496, .i32⟩) main_call3.call0.v0 main_call3.call0.v1 (fun x v => Host.reduceWindow IntOp.addi ![496] ![1] ![495] ![0] x v reduceWindows_S496_S496_w496s1p495_0 h_S_),
    StableHlo.nullary main_c_5 (constantI S_ 32 32#32),
    StableHlo.TRef.unary (.of main_c_5 : StableHlo.TRef sig ⟨S_, .i32⟩) main_call4.v0 (broadcastInDim S496 ![] bcast_S_S496),
    StableHlo.TRef.binary (.of main_v16 : StableHlo.TRef sig ⟨S496, .i32⟩) main_call4.v0 main_call4.v1 Host.divsi,
    StableHlo.TRef.unary (.of main_v16 : StableHlo.TRef sig ⟨S496, .i32⟩) main_call4.v2 signi,
    StableHlo.TRef.unary (.of main_c_5 : StableHlo.TRef sig ⟨S_, .i32⟩) main_call4.v3 signi,
    StableHlo.TRef.unary main_call4.v3 main_call4.v4 (broadcastInDim S496 ![] bcast_S_S496),
    StableHlo.TRef.binary main_call4.v2 main_call4.v4 main_call4.v5 (cmpi .ne),
    StableHlo.TRef.unary (.of main_c_5 : StableHlo.TRef sig ⟨S_, .i32⟩) main_call4.v6 (broadcastInDim S496 ![] bcast_S_S496),
    StableHlo.TRef.binary (.of main_v16 : StableHlo.TRef sig ⟨S496, .i32⟩) main_call4.v6 main_call4.v7 Host.remsi,
    StableHlo.TRef.nullary main_call4.c (constantI S_ 32 0#32),
    StableHlo.TRef.unary main_call4.c main_call4.v8 (broadcastInDim S496 ![] bcast_S_S496),
    StableHlo.TRef.binary main_call4.v7 main_call4.v8 main_call4.v9 (cmpi .ne),
    StableHlo.TRef.binary main_call4.v5 main_call4.v9 main_call4.v10 andi,
    StableHlo.TRef.nullary main_call4.c_0 (constantI S_ 32 1#32),
    StableHlo.TRef.unary main_call4.c_0 main_call4.v11 (broadcastInDim S496 ![] bcast_S_S496),
    StableHlo.TRef.binary main_call4.v1 main_call4.v11 main_call4.v12 subi,
    StableHlo.TRef.ternary main_call4.v10 main_call4.v12 main_call4.v1 main_call4.call0.v0 select,
    StableHlo.nullary main_c_6 (constantI S_ 32 32#32),
    StableHlo.TRef.unary (.of main_c_6 : StableHlo.TRef sig ⟨S_, .i32⟩) main_call5.v0 id,
    StableHlo.TRef.nullary main_call5.c (constantI S_ 32 0#32),
    StableHlo.TRef.binary main_call5.v0 main_call5.c main_call5.v1 (cmpi .eq),
    StableHlo.TRef.nullary main_call5.c_0 (constantI S_ 32 1#32),
    StableHlo.TRef.ternary main_call5.v1 main_call5.c_0 main_call5.v0 main_call5.call0.v0 select,
    StableHlo.TRef.unary main_call5.call0.v0 main_call5.v3 (broadcastInDim S496 ![] bcast_S_S496),
    StableHlo.TRef.binary (.of main_v17 : StableHlo.TRef sig ⟨S496, .i32⟩) main_call5.v3 main_call5.v4 Host.remsi,
    StableHlo.TRef.nullary main_call5.c_1 (constantI S_ 32 0#32),
    StableHlo.TRef.unary main_call5.c_1 main_call5.v5 (broadcastInDim S496 ![] bcast_S_S496),
    StableHlo.TRef.binary main_call5.v4 main_call5.v5 main_call5.v6 (cmpi .ne),
    StableHlo.TRef.nullary main_call5.c_2 (constantI S_ 32 0#32),
    StableHlo.TRef.unary main_call5.c_2 main_call5.v7 (broadcastInDim S496 ![] bcast_S_S496),
    StableHlo.TRef.binary main_call5.v4 main_call5.v7 main_call5.v8 (cmpi .slt),
    StableHlo.TRef.nullary main_call5.c_3 (constantI S_ 32 0#32),
    StableHlo.TRef.binary main_call5.call0.v0 main_call5.c_3 main_call5.v9 (cmpi .slt),
    StableHlo.TRef.unary main_call5.v9 main_call5.v10 (broadcastInDim S496 ![] bcast_S_S496),
    StableHlo.TRef.binary main_call5.v8 main_call5.v10 main_call5.v11 (cmpi .ne),
    StableHlo.TRef.binary main_call5.v11 main_call5.v6 main_call5.v12 andi,
    StableHlo.TRef.unary main_call5.call0.v0 main_call5.v13 (broadcastInDim S496 ![] bcast_S_S496),
    StableHlo.TRef.binary main_call5.v4 main_call5.v13 main_call5.v14 addi,
    StableHlo.TRef.ternary main_call5.v12 main_call5.v14 main_call5.v4 main_call5.v15 select,
    StableHlo.nullary main_c_7 (constantI S_ 32 1#32),
    StableHlo.TRef.unary (.of main_c_7 : StableHlo.TRef sig ⟨S_, .i32⟩) main_call6.v0 (broadcastInDim S496 ![] bcast_S_S496),
    StableHlo.TRef.binary (.of main_v16 : StableHlo.TRef sig ⟨S496, .i32⟩) main_call6.v0 main_call6.v1 Host.divsi,
    StableHlo.TRef.unary (.of main_v16 : StableHlo.TRef sig ⟨S496, .i32⟩) main_call6.v2 signi,
    StableHlo.TRef.unary (.of main_c_7 : StableHlo.TRef sig ⟨S_, .i32⟩) main_call6.v3 signi,
    StableHlo.TRef.unary main_call6.v3 main_call6.v4 (broadcastInDim S496 ![] bcast_S_S496),
    StableHlo.TRef.binary main_call6.v2 main_call6.v4 main_call6.v5 (cmpi .ne),
    StableHlo.TRef.unary (.of main_c_7 : StableHlo.TRef sig ⟨S_, .i32⟩) main_call6.v6 (broadcastInDim S496 ![] bcast_S_S496),
    StableHlo.TRef.binary (.of main_v16 : StableHlo.TRef sig ⟨S496, .i32⟩) main_call6.v6 main_call6.v7 Host.remsi,
    StableHlo.TRef.nullary main_call6.c (constantI S_ 32 0#32),
    StableHlo.TRef.unary main_call6.c main_call6.v8 (broadcastInDim S496 ![] bcast_S_S496),
    StableHlo.TRef.binary main_call6.v7 main_call6.v8 main_call6.v9 (cmpi .ne),
    StableHlo.TRef.binary main_call6.v5 main_call6.v9 main_call6.v10 andi,
    StableHlo.TRef.nullary main_call6.c_0 (constantI S_ 32 1#32),
    StableHlo.TRef.unary main_call6.c_0 main_call6.v11 (broadcastInDim S496 ![] bcast_S_S496),
    StableHlo.TRef.binary main_call6.v1 main_call6.v11 main_call6.v12 subi,
    StableHlo.TRef.ternary main_call6.v10 main_call6.v12 main_call6.v1 main_call6.call0.v0 select,
    StableHlo.nullary main_c_8 (constantI S_ 32 32#32),
    StableHlo.TRef.unary (.of main_c_8 : StableHlo.TRef sig ⟨S_, .i32⟩) main_call7.v0 id,
    StableHlo.TRef.nullary main_call7.c (constantI S_ 32 0#32),
    StableHlo.TRef.binary main_call7.v0 main_call7.c main_call7.v1 (cmpi .eq),
    StableHlo.TRef.nullary main_call7.c_0 (constantI S_ 32 1#32),
    StableHlo.TRef.ternary main_call7.v1 main_call7.c_0 main_call7.v0 main_call7.call0.v0 select,
    StableHlo.TRef.unary main_call7.call0.v0 main_call7.v3 (broadcastInDim S496 ![] bcast_S_S496),
    StableHlo.TRef.binary (.of main_v19 : StableHlo.TRef sig ⟨S496, .i32⟩) main_call7.v3 main_call7.v4 Host.remsi,
    StableHlo.TRef.nullary main_call7.c_1 (constantI S_ 32 0#32),
    StableHlo.TRef.unary main_call7.c_1 main_call7.v5 (broadcastInDim S496 ![] bcast_S_S496),
    StableHlo.TRef.binary main_call7.v4 main_call7.v5 main_call7.v6 (cmpi .ne),
    StableHlo.TRef.nullary main_call7.c_2 (constantI S_ 32 0#32),
    StableHlo.TRef.unary main_call7.c_2 main_call7.v7 (broadcastInDim S496 ![] bcast_S_S496),
    StableHlo.TRef.binary main_call7.v4 main_call7.v7 main_call7.v8 (cmpi .slt),
    StableHlo.TRef.nullary main_call7.c_3 (constantI S_ 32 0#32),
    StableHlo.TRef.binary main_call7.call0.v0 main_call7.c_3 main_call7.v9 (cmpi .slt),
    StableHlo.TRef.unary main_call7.v9 main_call7.v10 (broadcastInDim S496 ![] bcast_S_S496),
    StableHlo.TRef.binary main_call7.v8 main_call7.v10 main_call7.v11 (cmpi .ne),
    StableHlo.TRef.binary main_call7.v11 main_call7.v6 main_call7.v12 andi,
    StableHlo.TRef.unary main_call7.call0.v0 main_call7.v13 (broadcastInDim S496 ![] bcast_S_S496),
    StableHlo.TRef.binary main_call7.v4 main_call7.v13 main_call7.v14 addi,
    StableHlo.TRef.ternary main_call7.v12 main_call7.v14 main_call7.v4 main_call7.v15 select,
    StableHlo.nullary main_c_9 (constantI S_ 32 0#32),
    StableHlo.unary main_c_9 main_v21 (broadcastInDim S496 ![] bcast_S_S496 : (⟨S_, .i32⟩ : BufTy).Contents (Elt F) → (⟨S496, .i32⟩ : BufTy).Contents (Elt F)),
    StableHlo.binary main_v18 main_v21 main_v22 (cmpi .slt : (⟨S496, .i32⟩ : BufTy).Contents (Elt F) → (⟨S496, .i32⟩ : BufTy).Contents (Elt F) → (⟨S496, .i1⟩ : BufTy).Contents (Elt F)),
    StableHlo.nullary main_c_10 (constantI S_ 32 32#32),
    StableHlo.unary main_c_10 main_v23 (broadcastInDim S496 ![] bcast_S_S496 : (⟨S_, .i32⟩ : BufTy).Contents (Elt F) → (⟨S496, .i32⟩ : BufTy).Contents (Elt F)),
    StableHlo.binary main_v18 main_v23 main_v24 (addi : (⟨S496, .i32⟩ : BufTy).Contents (Elt F) → (⟨S496, .i32⟩ : BufTy).Contents (Elt F) → (⟨S496, .i32⟩ : BufTy).Contents (Elt F)),
    StableHlo.ternary main_v22 main_v24 main_v18 main_v25 (select : (⟨S496, .i1⟩ : BufTy).Contents (Elt F) → (⟨S496, .i32⟩ : BufTy).Contents (Elt F) → (⟨S496, .i32⟩ : BufTy).Contents (Elt F) → (⟨S496, .i32⟩ : BufTy).Contents (Elt F)),
    StableHlo.nullary main_c_11 (constantI S_ 32 0#32),
    StableHlo.unary main_c_11 main_v26 (broadcastInDim S496 ![] bcast_S_S496 : (⟨S_, .i32⟩ : BufTy).Contents (Elt F) → (⟨S496, .i32⟩ : BufTy).Contents (Elt F)),
    StableHlo.binary main_v20 main_v26 main_v27 (cmpi .slt : (⟨S496, .i32⟩ : BufTy).Contents (Elt F) → (⟨S496, .i32⟩ : BufTy).Contents (Elt F) → (⟨S496, .i1⟩ : BufTy).Contents (Elt F)),
    StableHlo.nullary main_c_12 (constantI S_ 32 32#32),
    StableHlo.unary main_c_12 main_v28 (broadcastInDim S496 ![] bcast_S_S496 : (⟨S_, .i32⟩ : BufTy).Contents (Elt F) → (⟨S496, .i32⟩ : BufTy).Contents (Elt F)),
    StableHlo.binary main_v20 main_v28 main_v29 (addi : (⟨S496, .i32⟩ : BufTy).Contents (Elt F) → (⟨S496, .i32⟩ : BufTy).Contents (Elt F) → (⟨S496, .i32⟩ : BufTy).Contents (Elt F)),
    StableHlo.ternary main_v27 main_v29 main_v20 main_v30 (select : (⟨S496, .i1⟩ : BufTy).Contents (Elt F) → (⟨S496, .i32⟩ : BufTy).Contents (Elt F) → (⟨S496, .i32⟩ : BufTy).Contents (Elt F) → (⟨S496, .i32⟩ : BufTy).Contents (Elt F)),
    StableHlo.unary main_v25 main_v31 (broadcastInDim S496x1 ![0] bcast_S496_S496x1_0 : (⟨S496, .i32⟩ : BufTy).Contents (Elt F) → (⟨S496x1, .i32⟩ : BufTy).Contents (Elt F)),
    StableHlo.unary main_v30 main_v32 (broadcastInDim S496x1 ![0] bcast_S496_S496x1_0 : (⟨S496, .i32⟩ : BufTy).Contents (Elt F) → (⟨S496x1, .i32⟩ : BufTy).Contents (Elt F)),
    StableHlo.binary main_v31 main_v32 main_v33 ((fun a b => concatenate S496x2 1 [⟨S496x1, a⟩, ⟨S496x1, b⟩] concatenates_S496x1_S496x1_S496x2_d1) : (⟨S496x1, .i32⟩ : BufTy).Contents (Elt F) → (⟨S496x1, .i32⟩ : BufTy).Contents (Elt F) → (⟨S496x2, .i32⟩ : BufTy).Contents (Elt F)),
    StableHlo.binary main_v0 main_v33 main_v34 ((fun x i => Host.gather gather_S16384x32x32_S496x2_S16384x496_0_12_n_n_12_1_1638411 x i) : (⟨S16384x32x32, .f32⟩ : BufTy).Contents (Elt F) → (⟨S496x2, .i32⟩ : BufTy).Contents (Elt F) → (⟨S16384x496, .f32⟩ : BufTy).Contents (Elt F)) ]

set_option maxRecDepth 4096 in
set_option maxHeartbeats 1600000 in
/-- The entry function is that straight line: the called functions unfolded at their calls and the buffer records
    at their fields, both sides are one chain of single-operation steps once sequencing is reassociated. -/
theorem main_eq (c : Dev nD) : main (F := F) c = seq ops := by
  simp only [main, fn_triu.body, fn_cumsum_0.body, fn_cumsum.body, fn_clip.body, fn_cumsum_2.body, fn_cumsum_1.body, fn_where.body, fn_floor_divide.body, fn_where_3.body, fn_remainder.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches buffers of the device's own table only. -/
theorem ops_sub : (ops : List (HloOp τ sig (Elt F))).Forall fun op => op.bufs ⊆ tcRefs τ sig :=
  ⟨binary_bufs_sub .., nullary_bufs_sub .., unary_bufs_sub .., nullary_bufs_sub .., nullary_bufs_sub .., unary_bufs_sub .., binary_bufs_sub .., nullary_bufs_sub .., binary_bufs_sub .., nullary_bufs_sub .., unary_bufs_sub .., ternary_bufs_sub .., nullary_bufs_sub .., unary_bufs_sub .., binary_bufs_sub .., reshape_bufs_sub .., unary_bufs_sub .., nullary_bufs_sub .., unary_bufs_sub .., binary_bufs_sub .., nullary_bufs_sub .., unary_bufs_sub .., nullary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., nullary_bufs_sub .., unary_bufs_sub .., binary_bufs_sub .., nullary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., nullary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub ..⟩

/-- On every device, from any memory with zero counters: every weakly fair execution of the entry function
    terminates, and every final state has each buffer at the fold of the operations over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

set_option maxRecDepth 8192 in
set_option maxHeartbeats 1600000 in
/-- No operation writes the argument's buffer: it holds at the end what it held at the launch. -/
theorem arg0_eq (V : Valuation τ sig (Elt F)) :
    after ops V (main_arg0 : DevRef τ sig) = V (main_arg0 : DevRef τ sig) := by
  after_results_simp

end Cert.ReferenceIdeal.RefRun

end
-- ==== Proof.RefTerm.lean ====
/-
  The value the reference program computes, as a pure term.

  The reference forms dot = x xᵀ per batch (one dot_general), then computes — with integer operations that do not depend on
  x — the table of the 496 (row, column) pairs of the strict upper triangle of a 32 × 32 matrix, and gathers dot at those
  pairs.  Here the integer computation is written out stage by stage, each stage a definition applied to the previous one,
  with exactly the pure operations (and side conditions) the printed program applies, in its order:

    triu      the 32 × 32 float matrix that is 0 where row ≥ column and 1 elsewhere
    mask      its entries compared with 0: the bit "row < column"
    maskI     the mask flattened to 1024 entries, as 32-bit integers
    cs        the inclusive running sum of maskI (a window sum of width 1024, padded 1023 on the left)
    scatIdx   cs clipped below at 0, with negative entries shifted by 496 (there are none)
    counts    for each v < 496 the number of positions k with scatIdx k = v (a scatter-add of ones into zeros)
    flatIdx   the inclusive running sum of counts: the matrix position of the (p+1)-th set entry of the mask
    rowIdx    (flatIdx / 32) mod 32, with negative values shifted by 32 (there are none)
    colIdx    (flatIdx / 1) mod 32, likewise
    idxTable  the two columns side by side, a 496 × 2 table
    out x     the gather of x xᵀ at the table.
-/
import proofs.«158657_j18021682774682_1_alg».proof.ReferenceIdeal
import proofs.«158657_j18021682774682_1_alg».proof.Proof.Gen.ReferenceIdeal

namespace Cert.ReferenceIdeal.RefTerm

open Cert.ReferenceIdeal Idealize.ShloMosaic
open Cert.ReferenceIdeal.Facts₀ Cert.ReferenceIdeal.Facts

variable {F : FTy → Type} [FloatOps F]

noncomputable section

/-- The matrix of ones the triangle is cut from. -/
def ones : (⟨S32x32, .f32⟩ : BufTy).Contents (Elt F) :=
  broadcastInDim S32x32 ![] bcast_S_S32x32 (constant S_ .f32 0x3F800000#32)

/-- 0 where row + 0 ≥ column, 1 elsewhere. -/
def triu : (⟨S32x32, .f32⟩ : BufTy).Contents (Elt F) :=
  select
    (cmpi .sge
      (addi (iotaInDim S32x32 32 0) (broadcastInDim S32x32 ![] bcast_S_S32x32 (constantI S_ 32 0#32)))
      (iotaInDim S32x32 32 1))
    (broadcastInDim S32x32 ![] bcast_S_S32x32 (constant S_ .f32 0x00000000#32))
    (ones (F := F))

/-- The bit "the entry of triu is not 0". -/
def mask : (⟨S32x32, .i1⟩ : BufTy).Contents (Elt F) :=
  cmpf .une (triu (F := F)) (broadcastInDim S32x32 ![] bcast_S_S32x32 (constant S_ .f32 0x00000000#32))

/-- The mask read row by row as 1024 integers. -/
def maskI : (⟨S1024, .i32⟩ : BufTy).Contents (Elt F) :=
  extui 32 (shapeCast S1024 (mask (F := F)) shapeCasts_S32x32_S1024) natLt_1_32

/-- The inclusive running sum of the mask. -/
def cs : (⟨S1024, .i32⟩ : BufTy).Contents (Elt F) :=
  Host.reduceWindow IntOp.addi ![1024] ![1] ![1023] ![0] (maskI (F := F))
    (broadcastInDim S_ ![] bcast_S_S_ (constantI S_ 32 0#32)) reduceWindows_S1024_S1024_w1024s1p1023_0 h_S_

/-- 496 zeros: what the counts are added into. -/
def zeros496 : (⟨S496, .i32⟩ : BufTy).Contents (Elt F) :=
  broadcastInDim S496 ![] bcast_S_S496 (constantI S_ 32 0#32)

/-- The running sum clipped below at 0. -/
def clipped : (⟨S1024, .i32⟩ : BufTy).Contents (Elt F) :=
  maxsi (broadcastInDim S1024 ![] bcast_S_S1024 (id (constantI S_ 32 0#32))) (cs (F := F))

/-- The positions the ones are added at: a negative entry is shifted by 496. -/
def scatIdx : (⟨S1024, .i32⟩ : BufTy).Contents (Elt F) :=
  select
    (cmpi .slt (clipped (F := F)) (broadcastInDim S1024 ![] bcast_S_S1024 (constantI S_ 32 0#32)))
    (addi (clipped (F := F)) (broadcastInDim S1024 ![] bcast_S_S1024 (constantI S_ 32 496#32)))
    (clipped (F := F))

/-- For each v the number of k with scatIdx k = v. -/
def counts : (⟨S496, .i32⟩ : BufTy).Contents (Elt F) :=
  Host.scatter scatter_S496_S1024x1_S1024_n_0_0_1 IntOp.addi (zeros496 (F := F))
    (broadcastInDim S1024x1 ![0] bcast_S1024_S1024x1_0 (scatIdx (F := F)))
    (broadcastInDim S1024 ![] bcast_S_S1024 (constantI S_ 32 1#32))

/-- The inclusive running sum of the counts. -/
def flatIdx : (⟨S496, .i32⟩ : BufTy).Contents (Elt F) :=
  Host.reduceWindow IntOp.addi ![496] ![1] ![495] ![0] (counts (F := F))
    (broadcastInDim S_ ![] bcast_S_S_ (constantI S_ 32 0#32)) reduceWindows_S496_S496_w496s1p495_0 h_S_

/-- Division rounding toward minus infinity: the truncated quotient, less one where the signs differ
    and the remainder is not 0. -/
def floorDivide (a : (⟨S496, .i32⟩ : BufTy).Contents (Elt F)) (c : (⟨S_, .i32⟩ : BufTy).Contents (Elt F)) :
    (⟨S496, .i32⟩ : BufTy).Contents (Elt F) :=
  select
    (andi
      (cmpi .ne (signi a) (broadcastInDim S496 ![] bcast_S_S496 (signi c)))
      (cmpi .ne (Host.remsi a (broadcastInDim S496 ![] bcast_S_S496 c))
        (broadcastInDim S496 ![] bcast_S_S496 (constantI S_ 32 0#32))))
    (subi (Host.divsi a (broadcastInDim S496 ![] bcast_S_S496 c))
      (broadcastInDim S496 ![] bcast_S_S496 (constantI S_ 32 1#32)))
    (Host.divsi a (broadcastInDim S496 ![] bcast_S_S496 c))

/-- The divisor the remainder is taken by: 1 in place of 0. -/
def safeDivisor (c : (⟨S_, .i32⟩ : BufTy).Contents (Elt F)) : (⟨S_, .i32⟩ : BufTy).Contents (Elt F) :=
  select (cmpi .eq (id c) (constantI S_ 32 0#32)) (constantI S_ 32 1#32) (id c)

/-- The remainder with the sign of the divisor: the truncated remainder, plus the divisor where it is
    not 0 and its sign differs from the divisor's. -/
def remainder (a : (⟨S496, .i32⟩ : BufTy).Contents (Elt F)) (c : (⟨S_, .i32⟩ : BufTy).Contents (Elt F)) :
    (⟨S496, .i32⟩ : BufTy).Contents (Elt F) :=
  select
    (andi
      (cmpi .ne
        (cmpi .slt (Host.remsi a (broadcastInDim S496 ![] bcast_S_S496 (safeDivisor (F := F) c)))
          (broadcastInDim S496 ![] bcast_S_S496 (constantI S_ 32 0#32)))
        (broadcastInDim S496 ![] bcast_S_S496 (cmpi .slt (safeDivisor (F := F) c) (constantI S_ 32 0#32))))
      (cmpi .ne (Host.remsi a (broadcastInDim S496 ![] bcast_S_S496 (safeDivisor (F := F) c)))
        (broadcastInDim S496 ![] bcast_S_S496 (constantI S_ 32 0#32))))
    (addi (Host.remsi a (broadcastInDim S496 ![] bcast_S_S496 (safeDivisor (F := F) c)))
      (broadcastInDim S496 ![] bcast_S_S496 (safeDivisor (F := F) c)))
    (Host.remsi a (broadcastInDim S496 ![] bcast_S_S496 (safeDivisor (F := F) c)))

/-- A negative index counted from the end: shifted by 32. -/
def wrap32 (a : (⟨S496, .i32⟩ : BufTy).Contents (Elt F)) : (⟨S496, .i32⟩ : BufTy).Contents (Elt F) :=
  select (cmpi .slt a (broadcastInDim S496 ![] bcast_S_S496 (constantI S_ 32 0#32)))
    (addi a (broadcastInDim S496 ![] bcast_S_S496 (constantI S_ 32 32#32))) a

/-- The row of each pair. -/
def rowIdx : (⟨S496, .i32⟩ : BufTy).Contents (Elt F) :=
  wrap32 (F := F) (remainder (F := F) (floorDivide (F := F) (flatIdx (F := F)) (constantI S_ 32 32#32)) (constantI S_ 32 32#32))

/-- The column of each pair. -/
def colIdx : (⟨S496, .i32⟩ : BufTy).Contents (Elt F) :=
  wrap32 (F := F) (remainder (F := F) (floorDivide (F := F) (flatIdx (F := F)) (constantI S_ 32 1#32)) (constantI S_ 32 32#32))

/-- The table of pairs: row in column 0, column in column 1. -/
def idxTable : (⟨S496x2, .i32⟩ : BufTy).Contents (Elt F) :=
  concatenate S496x2 1
    [⟨S496x1, broadcastInDim S496x1 ![0] bcast_S496_S496x1_0 (rowIdx (F := F))⟩,
     ⟨S496x1, broadcastInDim S496x1 ![0] bcast_S496_S496x1_0 (colIdx (F := F))⟩]
    concatenates_S496x1_S496x1_S496x2_d1

/-- The reference's result: x xᵀ per batch, gathered at the table of pairs. -/
def out (x : (⟨S16384x32x128, .f32⟩ : BufTy).Contents (Elt F)) : (⟨S16384x496, .f32⟩ : BufTy).Contents (Elt F) :=
  Host.gather gather_S16384x32x32_S496x2_S16384x496_0_12_n_n_12_1_1638411
    (Host.dotGeneral dot_S16384x32x128_S16384x32x128_S16384x32x32_2_2_1_1_0_0 none x x)
    (idxTable (F := F))

end

end Cert.ReferenceIdeal.RefTerm
-- ==== Proof.RefRun.lean ====
/-
  The reference program's run, read back.  Along the straight line of the reference's operations every buffer is
  written once, by one operation, as a function of buffers written before it; so what the result buffer holds at
  the end is a composed term of the argument's contents alone: the gather of x xᵀ (one batched product of the
  argument with itself) at a 496 × 2 table of (row, column) pairs that no operation computes from x.  Read stage by
  stage, that table is the one the reference's value is stated with: the mask of the strict upper triangle of a
  32 × 32 matrix, its running count, the histogram of the running count, the running count of the histogram (the
  matrix position of each entry of the triangle), then the quotient of the positions by 32 and by 1, each reduced
  modulo 32, side by side.  Hence every weakly fair execution ends with the result buffer at that gather and the
  argument's buffer untouched.
-/
import proofs.«158657_j18021682774682_1_alg».proof.Proof.RefOps
import proofs.«158657_j18021682774682_1_alg».proof.Proof.RefTerm

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F]

/-- Two columns of 496 entries side by side: a 496 × 2 table, as a function of its two columns. -/
def pairTable (a b : S496x1.Idx → Elt F .i32) : S496x2.Idx → Elt F .i32 :=
  concatenate S496x2 1 [⟨S496x1, a⟩, ⟨S496x1, b⟩] concatenates_S496x1_S496x1_S496x2_d1

theorem pairTable_def (a b : S496x1.Idx → Elt F .i32) :
    concatenate S496x2 1 [⟨S496x1, a⟩, ⟨S496x1, b⟩] concatenates_S496x1_S496x1_S496x2_d1 = pairTable (F := F) a b := rfl

attribute [local irreducible] Host.reduceWindow Host.scatter Host.gather in
set_option maxRecDepth 8192 in
set_option maxHeartbeats 800000 in
/-- The fold read at the result buffer is the gather of the product at the table of pairs.
    The fold is unrolled; each operation's result at its own buffer is its function of its operands' contents and
    at any other buffer what was there; a called function's typed references move contents along an equation
    between a buffer's type and itself, which is the identity.  The side-by-side table takes its two columns inside
    a list whose well-formedness proof mentions the list, so the table is first named as a function of its two
    columns and the two columns are then read in the same way.  What is left is the composed term with every
    shared stage written out at each of its uses; the stages are named from the innermost outwards — the matrix of
    ones, the triangle, its mask, the mask as 1024 integers (the reshape reads entry by entry, which is the same
    function), the running count, its clip, the scatter positions, the histogram, its running count — after which
    both sides are the same few operations applied to the positions. -/
theorem out_eq (V : Valuation τ sig (Elt F)) :
    after ops V (main_v34 : DevRef τ sig) = RefTerm.out (F := F) (V (main_arg0 : DevRef τ sig)) := by
  simp (disch := decide) only [after_cons, after_nil,
    nullary_result', unary_result', binary_result', ternary_result', reshape_result',
    nullary_result_ne', unary_result_ne', binary_result_ne', ternary_result_ne', reshape_result_ne',
    TRef.toBuf, TRef.ofBuf, cast_eq]
  rw [pairTable_def]
  simp (disch := decide) only [after_cons, after_nil,
    nullary_result', unary_result', binary_result', ternary_result', reshape_result',
    nullary_result_ne', unary_result_ne', binary_result_ne', ternary_result_ne', reshape_result_ne',
    TRef.toBuf, TRef.ofBuf, cast_eq]
  rw [← RefTerm.ones.eq_1, ← RefTerm.triu.eq_1, ← RefTerm.mask.eq_1]
  rw [show (extui 32 (fun i => shapeCast main_call1_v0.ty.shape (RefTerm.mask (F := F)) (shapeCasts_S32x32_S1024) i) natLt_1_32) = RefTerm.maskI (F := F) from rfl]
  rw [← RefTerm.cs.eq_1, ← RefTerm.clipped.eq_1, ← RefTerm.scatIdx.eq_1]
  rw [show Host.scatter scatter_S496_S1024x1_S1024_n_0_0_1 IntOp.addi
      (broadcastInDim S496 ![] bcast_S_S496 (constantI S_ 32 0#32))
      (broadcastInDim S1024x1 ![0] bcast_S1024_S1024x1_0 (RefTerm.scatIdx (F := F)))
      (broadcastInDim S1024 ![] bcast_S_S1024 (constantI S_ 32 1#32)) = RefTerm.counts (F := F) from rfl]
  rw [← RefTerm.flatIdx.eq_1]
  rfl

/-- On every device, from any memory with zero counters: every weakly fair execution of the reference terminates
    with the result buffer at the gather of the argument's batched product with itself at the table of pairs, and
    the argument's buffer as it was. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v34) = RefTerm.out (F := F) (m ((c.tc : Thread nD τ).loc main_arg0))
      ∧ r.2.mem ((c.tc : Thread nD τ).loc main_arg0) = m ((c.tc : Thread nD τ).loc main_arg0) :=
  (θ_run defs _ _).mono (fun _ h c => ⟨(h c main_v34).trans (out_eq _), (h c main_arg0).trans (arg0_eq _)⟩)
    (run_main m ρ)

end Cert.ReferenceIdeal.RefRun

end
-- ==== Proof.RefGather.lean ====
/-
  The reference's final gather read at an index.

  The gather takes the batch axis whole (offset axis 0 of the result, slice size 16384) and collapses the two matrix axes,
  whose start positions are the two entries of row p of the index table, read as signed integers and clamped into
  [0, 31].  So the result at (b, p) is the operand at (b, clamp idx[p, 0], clamp idx[p, 1]).
-/
import proofs.«158657_j18021682774682_1_alg».proof.Proof.RefTerm
import Idealize.ShloMosaic.Lib.ValueIdx

namespace Cert.ReferenceIdeal.RefGather

open Cert.ReferenceIdeal Idealize.ShloMosaic Idealize.ShloMosaic.ValueIdx

/-- The printed dimension numbers of the gather. -/
abbrev gd := gather_S16384x32x32_S496x2_S16384x496_0_12_n_n_12_1_1638411

/-- Component 0 of the start index of result (b, p) is read at (p, 0) of the table. -/
theorem gd_siIdx0 (b : Fin 16384) (p : Fin 496) (h) : gd.siIdx (ix2 b p) ⟨0, h⟩ = ix2 p (0 : Fin 2) := by
  funext c; refine Fin.ext ?_
  match c with
  | ⟨0, _⟩ => rfl
  | ⟨1, _⟩ => rfl

/-- Component 1 is read at (p, 1). -/
theorem gd_siIdx1 (b : Fin 16384) (p : Fin 496) (h) : gd.siIdx (ix2 b p) ⟨1, h⟩ = ix2 p (1 : Fin 2) := by
  funext c; refine Fin.ext ?_
  match c with
  | ⟨0, _⟩ => rfl
  | ⟨1, _⟩ => rfl

/-- On the batch axis the operand index is the result's batch coordinate. -/
theorem gd_operand0 (idx : IVec S496x2 32) (b : Fin 16384) (p : Fin 496) :
    (gd.operandIdx (ix2 b p) idx (0 : Fin 3)).val = b.val := by
  show gd.start (ix2 b p) idx 0 + gd.batchCoord (ix2 b p) 0 + gd.offCoord (ix2 b p) 0 = _
  rw [GatherDims.batchCoord_eq_zero _ _ _ List.not_mem_nil]
  have hs : gd.start (ix2 b p) idx (0 : Fin 3) = 0 := by
    unfold GatherDims.start; rw [dif_neg (by decide)]
  rw [hs]
  unfold GatherDims.offCoord
  rw [dif_pos (by decide)]
  simp only [Nat.zero_add]
  rfl

/-- On the row axis it is the clamped entry (p, 0) of the table. -/
theorem gd_operand1 (idx : IVec S496x2 32) (b : Fin 16384) (p : Fin 496) :
    (gd.operandIdx (ix2 b p) idx (1 : Fin 3)).val = min (idx (ix2 p (0 : Fin 2))).toInt.toNat 31 := by
  show gd.start (ix2 b p) idx 1 + gd.batchCoord (ix2 b p) 1 + gd.offCoord (ix2 b p) 1 = _
  rw [GatherDims.batchCoord_eq_zero _ _ _ List.not_mem_nil,
    GatherDims.offCoord_eq_zero _ _ _ (fun h => ((GatherDims.mem_sKept _ _).mp h).1 (by decide))]
  simp only [Nat.add_zero]
  unfold GatherDims.start
  rw [dif_pos (show (1 : Fin 3) ∈ gd.startIndexMap from by decide)]
  have hi : List.idxOf (1 : Fin 3) gd.startIndexMap = 0 := by decide
  simp only [hi]
  rw [gd_siIdx0]
  rfl

/-- On the column axis it is the clamped entry (p, 1) of the table. -/
theorem gd_operand2 (idx : IVec S496x2 32) (b : Fin 16384) (p : Fin 496) :
    (gd.operandIdx (ix2 b p) idx (2 : Fin 3)).val = min (idx (ix2 p (1 : Fin 2))).toInt.toNat 31 := by
  show gd.start (ix2 b p) idx 2 + gd.batchCoord (ix2 b p) 2 + gd.offCoord (ix2 b p) 2 = _
  rw [GatherDims.batchCoord_eq_zero _ _ _ List.not_mem_nil,
    GatherDims.offCoord_eq_zero _ _ _ (fun h => ((GatherDims.mem_sKept _ _).mp h).1 (by decide))]
  simp only [Nat.add_zero]
  unfold GatherDims.start
  rw [dif_pos (show (2 : Fin 3) ∈ gd.startIndexMap from by decide)]
  have hi : List.idxOf (2 : Fin 3) gd.startIndexMap = 1 := by decide
  simp only [hi]
  rw [gd_siIdx1]
  rfl

/-- The gather at (b, p): the operand at (b, clamp idx[p, 0], clamp idx[p, 1]). -/
theorem gather_apply {α : Type} (x : S16384x32x32.Idx → α) (idx : IVec S496x2 32) (b : Fin 16384) (p : Fin 496) :
    Host.gather gd x idx (ix2 b p)
      = x (ix3 b ⟨min (idx (ix2 p (0 : Fin 2))).toInt.toNat 31, by omega⟩
            ⟨min (idx (ix2 p (1 : Fin 2))).toInt.toNat 31, by omega⟩) := by
  unfold Host.gather
  congr 1
  funext a
  refine Fin.ext ?_
  match a with
  | ⟨0, _⟩ => exact gd_operand0 idx b p
  | ⟨1, _⟩ => exact gd_operand1 idx b p
  | ⟨2, _⟩ => exact gd_operand2 idx b p

/-- When the table's row p holds the words of r and c, both below 32, the gather reads (b, r, c). -/
theorem gather_apply_of {α : Type} (x : S16384x32x32.Idx → α) (idx : IVec S496x2 32) (b : Fin 16384) (p : Fin 496)
    (r c : Fin 32) (hr : idx (ix2 p (0 : Fin 2)) = BitVec.ofNat 32 r.val) (hc : idx (ix2 p (1 : Fin 2)) = BitVec.ofNat 32 c.val) :
    Host.gather gd x idx (ix2 b p) = x (ix3 b r c) := by
  have key : ∀ r : Fin 32, min (BitVec.ofNat 32 r.val).toInt.toNat 31 = r.val := by decide
  rw [gather_apply]
  congr 1
  funext a
  refine Fin.ext ?_
  match a with
  | ⟨0, _⟩ => rfl
  | ⟨1, _⟩ => show min (idx (ix2 p (0 : Fin 2))).toInt.toNat 31 = r.val; rw [hr]; exact key r
  | ⟨2, _⟩ => show min (idx (ix2 p (1 : Fin 2))).toInt.toNat 31 = c.val; rw [hc]; exact key c

end Cert.ReferenceIdeal.RefGather
-- ==== Proof.RefWords.lean ====
/-
  The reference's pointwise integer chains, on one 32-bit word.

  The reference clips the running sum at 0 and shifts negative values by 496; divides by 32 (or 1) rounding toward minus
  infinity, takes the remainder by 32 with the divisor's sign, and shifts negative values by 32.  On the words of the
  numbers that actually occur — 0 … 1024 for the running sum, 0 … 1023 for the matrix position — none of the sign
  corrections fires, and the chains compute n, n / 32 and n % 32.
-/
import Idealize.ShloMosaic.PureOps

open Idealize.ShloMosaic

namespace Cert.ReferenceIdeal.RefWords

/-- The sign of a word: 0, -1 or 1. -/
def signW (x : BitVec 32) : BitVec 32 := if x = 0 then 0 else if x.msb then -1 else 1

/-- The clip below at 0. -/
def clipW (c : BitVec 32) : BitVec 32 := IntOp.maxsi 0#32 c

/-- The clip, then a negative value shifted by 496. -/
def scatW (c : BitVec 32) : BitVec 32 :=
  Scalar.select (IntOp.cmpi .slt (clipW c) 0#32) (IntOp.addi (clipW c) 496#32) (clipW c)

/-- Division rounding toward minus infinity. -/
def floorDivW (a c : BitVec 32) : BitVec 32 :=
  Scalar.select
    (IntOp.andi (IntOp.cmpi .ne (signW a) (signW c)) (IntOp.cmpi .ne (IntOp.remsi .host a c) 0#32))
    (IntOp.subi (IntOp.divsi .host a c) 1#32)
    (IntOp.divsi .host a c)

/-- The divisor of the remainder: 1 in place of 0. -/
def safeDivW (c : BitVec 32) : BitVec 32 := Scalar.select (IntOp.cmpi .eq c 0#32) 1#32 c

/-- The remainder with the divisor's sign. -/
def remW (a c : BitVec 32) : BitVec 32 :=
  Scalar.select
    (IntOp.andi
      (IntOp.cmpi .ne (IntOp.cmpi .slt (IntOp.remsi .host a (safeDivW c)) 0#32) (IntOp.cmpi .slt (safeDivW c) 0#32))
      (IntOp.cmpi .ne (IntOp.remsi .host a (safeDivW c)) 0#32))
    (IntOp.addi (IntOp.remsi .host a (safeDivW c)) (safeDivW c))
    (IntOp.remsi .host a (safeDivW c))

/-- A negative value shifted by 32. -/
def wrapW (a : BitVec 32) : BitVec 32 := Scalar.select (IntOp.cmpi .slt a 0#32) (IntOp.addi a 32#32) a

/-- The row chain: divide by 32, remainder by 32, shift. -/
def rowW (f : BitVec 32) : BitVec 32 := wrapW (remW (floorDivW f 32#32) 32#32)

/-- The column chain: divide by 1, remainder by 32, shift. -/
def colW (f : BitVec 32) : BitVec 32 := wrapW (remW (floorDivW f 1#32) 32#32)

/-- On 0 … 1024 the clip and the shift do nothing. -/
theorem scatW_ofNat : ∀ n : Fin 1025, scatW (BitVec.ofNat 32 n.val) = BitVec.ofNat 32 n.val := by decide +kernel

/-- On 0 … 1024 the signed reading is the number. -/
theorem toInt_ofNat : ∀ n : Fin 1025, (BitVec.ofNat 32 n.val).toInt = (n.val : Int) := by decide +kernel

/-- On 0 … 1023 the row chain is the quotient by 32 … -/
theorem rowW_ofNat : ∀ k : Fin 1024, rowW (BitVec.ofNat 32 k.val) = BitVec.ofNat 32 (k.val / 32) := by decide +kernel

/-- … and the column chain the remainder. -/
theorem colW_ofNat : ∀ k : Fin 1024, colW (BitVec.ofNat 32 k.val) = BitVec.ofNat 32 (k.val % 32) := by decide +kernel

/-- The comparison that cuts the triangle: row + 0 ≥ column, on the words of two numbers below 32. -/
theorem sge_ofNat : ∀ a b : Fin 32,
    IntOp.cmpi .sge (IntOp.addi (BitVec.ofNat 32 a.val) 0#32) (BitVec.ofNat 32 b.val) = if b.val ≤ a.val then 1#1 else 0#1 := by
  decide +kernel

end Cert.ReferenceIdeal.RefWords
-- ==== Proof.RefRead.lean ====
/-
  The stages of the reference's integer chain read at an index.

  Every stage but the two running sums and the scatter is pointwise, a reshape, a broadcast or a concatenation: read at an
  index it is the one-word chain (of the module of words) applied to the previous stage at the matching index.
-/
import proofs.«158657_j18021682774682_1_alg».proof.Proof.RefTerm
import proofs.«158657_j18021682774682_1_alg».proof.Proof.RefWords
import Idealize.ShloMosaic.Lib.ValueIdx
import Idealize.ShloMosaic.Lib.Pipeline.Value

open Cert.ReferenceIdeal Idealize.ShloMosaic Idealize.ShloMosaic.ValueIdx

namespace Cert.ReferenceIdeal.RefRead

open RefWords

variable {F : FTy → Type} [FloatOps F]

/-- The mask at (a, b): the float comparison of the triangle's entry with 0. -/
theorem mask_apply (a b : Fin 32) :
    RefTerm.mask (F := F) (ix2 a b)
      = FloatOps.cmpf .une
          (Scalar.select (IntOp.cmpi .sge (IntOp.addi (BitVec.ofNat 32 a.val) 0#32) (BitVec.ofNat 32 b.val))
            (FloatOps.ofBits .f32 0x00000000#32) (FloatOps.ofBits .f32 0x3F800000#32))
          (FloatOps.ofBits (F := F) .f32 0x00000000#32) := rfl

/-- The flattened mask at k is the mask at (k / 32, k % 32), widened. -/
theorem maskI_apply (k : Fin 1024) :
    RefTerm.maskI (F := F) (ix1 k)
      = (RefTerm.mask (F := F) (ix2 (⟨k.val / 32, by omega⟩ : Fin 32) (⟨k.val % 32, by omega⟩ : Fin 32))).setWidth 32 := by
  unfold RefTerm.maskI
  rw [extui_apply]
  congr 1
  refine shapeCast_apply _ _ (ix1 k) (ix2 (⟨k.val / 32, by omega⟩ : Fin 32) (⟨k.val % 32, by omega⟩ : Fin 32)) ?_
  rw [Shape.rowMajor_val_two, Shape.rowMajor_val_one]
  show k.val / 32 * 32 + k.val % 32 = k.val
  omega

theorem scatIdx_apply (i : S1024.Idx) : RefTerm.scatIdx (F := F) i = scatW (RefTerm.cs (F := F) i) := rfl

theorem floorDivide_apply (a : IVec S496 32) (c : BitVec 32) (i : S496.Idx) :
    RefTerm.floorDivide (F := F) a (constantI S_ 32 c) i = floorDivW (a i) c := rfl

theorem remainder_apply (a : IVec S496 32) (c : BitVec 32) (i : S496.Idx) :
    RefTerm.remainder (F := F) a (constantI S_ 32 c) i = remW (a i) c := rfl

theorem wrap32_apply (a : IVec S496 32) (i : S496.Idx) : RefTerm.wrap32 (F := F) a i = wrapW (a i) := rfl

theorem rowIdx_apply (i : S496.Idx) : RefTerm.rowIdx (F := F) i = rowW (RefTerm.flatIdx (F := F) i) := by
  unfold RefTerm.rowIdx rowW
  rw [wrap32_apply, remainder_apply, floorDivide_apply]

theorem colIdx_apply (i : S496.Idx) : RefTerm.colIdx (F := F) i = colW (RefTerm.flatIdx (F := F) i) := by
  unfold RefTerm.colIdx colW
  rw [wrap32_apply, remainder_apply, floorDivide_apply]

/-- Column 0 of the table is the row vector. -/
theorem idxTable_zero (p : Fin 496) : RefTerm.idxTable (F := F) (ix2 p (0 : Fin 2)) = RefTerm.rowIdx (F := F) (ix1 p) := by
  unfold RefTerm.idxTable
  rw [concatenate_pair_apply_left (t := S496x2) (s₁ := S496x1) (s₂ := S496x1) (1 : Fin 2) _ _ _ (ix2 p (0 : Fin 2)) rfl
    (ix2 p (0 : Fin 1) : S496x1.Idx) (fun b => match b with | ⟨0, _⟩ => rfl | ⟨1, _⟩ => rfl)]
  refine broadcastInDim_apply _ _ _ _ (ix1 p) (fun a => ?_)
  obtain rfl : a = 0 := Subsingleton.elim _ _
  rfl

/-- Column 1 of the table is the column vector. -/
theorem idxTable_one (p : Fin 496) : RefTerm.idxTable (F := F) (ix2 p (1 : Fin 2)) = RefTerm.colIdx (F := F) (ix1 p) := by
  unfold RefTerm.idxTable
  rw [concatenate_pair_apply_right (t := S496x2) (s₁ := S496x1) (s₂ := S496x1) (1 : Fin 2) _ _ _ (ix2 p (1 : Fin 2)) rfl rfl
    (ix2 p (0 : Fin 1) : S496x1.Idx) (fun b hb => match b, hb with | ⟨0, _⟩, _ => rfl | ⟨1, _⟩, hb => absurd rfl hb) rfl]
  refine broadcastInDim_apply _ _ _ _ (ix1 p) (fun a => ?_)
  obtain rfl : a = 0 := Subsingleton.elim _ _
  rfl

end Cert.ReferenceIdeal.RefRead
-- ==== Proof.RefCumsum.lean ====
/-
  The inclusive running sum as the reference spells it: a window sum of width N over a vector of length N padded with
  N - 1 zeros on the left.  Read at position j it is the sum of the entries 0 … j.
-/
import Idealize.ShloMosaic.PureOps
import Idealize.ShloMosaic.Lib.ValueIdx
import Mathlib.Data.BitVec
import Mathlib.Algebra.BigOperators.Intervals

open Idealize.ShloMosaic Idealize.ShloMosaic.ValueIdx
open scoped BigOperators

namespace Cert.Cumsum

/-- A left fold that adds a term per list element is the start plus the sum of the terms. -/
theorem foldl_add {κ : Type} (g : κ → BitVec 32) (l : List κ) (v : BitVec 32) :
    l.foldl (fun r n => IntOp.addi r (g n)) v = v + (l.map g).sum := by
  induction l generalizing v with
  | nil => simp
  | cons a l ih =>
    simp only [List.foldl_cons, List.map_cons, List.sum_cons, ih]
    show v + g a + _ = _
    rw [BitVec.add_assoc]

/-- A vector of length N as a function on all naturals, zero past the end. -/
def ext {N : Nat} (x : IVec ⟨1, ![N]⟩ 32) (i : Nat) : BitVec 32 := if h : i < N then x (ix1 ⟨i, h⟩) else 0

theorem ext_of_lt {N : Nat} (x : IVec ⟨1, ![N]⟩ 32) (i : Nat) (h : i < N) : ext x i = x (ix1 ⟨i, h⟩) := dif_pos h

/-- The window's term at window position m, for the result position j: the entry j + m - lo when that is inside. -/
def term {N : Nat} (x : IVec ⟨1, ![N]⟩ 32) (lo j m : Nat) : BitVec 32 := if lo ≤ j + m then ext x (j + m - lo) else 0

/-- The terms of a window of width N padded lo = N - 1 on the left add up to the entries 0 … j. -/
theorem sum_term {N : Nat} (x : IVec ⟨1, ![N]⟩ 32) (lo : Nat) (hlo : lo + 1 = N) (j : Nat) (hj : j < N) :
    ∑ m ∈ Finset.range N, term x lo j m = ∑ i ∈ Finset.range (j + 1), ext x i := by
  rw [Finset.range_eq_Ico, ← Finset.sum_Ico_consecutive _ (Nat.zero_le (lo - j)) (by omega : lo - j ≤ N)]
  have h0 : ∑ m ∈ Finset.Ico 0 (lo - j), term x lo j m = 0 := by
    refine Finset.sum_eq_zero fun m hm => ?_
    have := (Finset.mem_Ico.mp hm).2
    unfold term; rw [if_neg (by omega)]
  rw [h0, zero_add, Finset.sum_Ico_eq_sum_range]
  have hn : N - (lo - j) = j + 1 := by omega
  rw [hn]
  refine Finset.sum_congr rfl fun i hi => ?_
  have := Finset.mem_range.mp hi
  unfold term; rw [if_pos (by omega)]
  congr 1; omega

/-- The window sum at position j is the sum of the entries 0 … j (the window's other positions fall in the padding). -/
theorem cumsum_apply (N lo : Nat) (hlo : lo + 1 = N) (x : IVec ⟨1, ![N]⟩ 32) (init : IVec ⟨0, ![]⟩ 32)
    (h : (⟨1, ![N]⟩ : Shape).ReduceWindows (![N] : Fin 1 → Nat) ![1] ![lo] ![0] ⟨1, ![N]⟩)
    (hu : 0 < (⟨0, ![]⟩ : Shape).numel) (hv : init (Shape.Idx.first hu) = 0) (j : Fin N) :
    Host.reduceWindow IntOp.addi ![N] ![1] ![lo] ![0] x init h hu (ix1 j) = ∑ i ∈ Finset.range (j.val + 1), ext x i := by
  unfold Host.reduceWindow
  simp only [hv]
  rw [foldl_add, zero_add, ← Fin.sum_univ_def]
  have hnum : (⟨1, ![N]⟩ : Shape).numel = N := by simp [Shape.numel]
  have hpt : ∀ i : Fin (⟨1, ![N]⟩ : Shape).numel,
      (if h_1 : ∀ a : Fin 1,
          (![lo] : Fin 1 → Nat) a ≤ (ix1 j (Fin.cast h.1.symm a)).val * (![1] : Fin 1 → Nat) a + ((⟨1, ![N]⟩ : Shape).rowMajor.symm i a).val ∧
            (ix1 j (Fin.cast h.1.symm a)).val * (![1] : Fin 1 → Nat) a + ((⟨1, ![N]⟩ : Shape).rowMajor.symm i a).val - (![lo] : Fin 1 → Nat) a
              < (![N] : Fin 1 → Nat) a then
        x fun a => ⟨(ix1 j (Fin.cast h.1.symm a)).val * (![1] : Fin 1 → Nat) a + ((⟨1, ![N]⟩ : Shape).rowMajor.symm i a).val - (![lo] : Fin 1 → Nat) a, (h_1 a).2⟩
      else 0) = term x lo j.val i.val := by
    intro i
    have hm : (((⟨1, ![N]⟩ : Shape).rowMajor.symm i) 0).val = i.val := by
      have := Shape.rowMajor_val_one ((⟨1, ![N]⟩ : Shape).rowMajor.symm i)
      rw [Equiv.apply_symm_apply] at this
      exact this.symm
    by_cases hc : lo ≤ j.val + i.val ∧ j.val + i.val - lo < N
    · have hall : ∀ a : Fin 1,
          (![lo] : Fin 1 → Nat) a ≤ (ix1 j (Fin.cast h.1.symm a)).val * (![1] : Fin 1 → Nat) a + ((⟨1, ![N]⟩ : Shape).rowMajor.symm i a).val ∧
            (ix1 j (Fin.cast h.1.symm a)).val * (![1] : Fin 1 → Nat) a + ((⟨1, ![N]⟩ : Shape).rowMajor.symm i a).val - (![lo] : Fin 1 → Nat) a
              < (![N] : Fin 1 → Nat) a := by
        intro a
        match a with
        | ⟨0, _⟩ =>
          show lo ≤ j.val * 1 + (((⟨1, ![N]⟩ : Shape).rowMajor.symm i) 0).val ∧ j.val * 1 + (((⟨1, ![N]⟩ : Shape).rowMajor.symm i) 0).val - lo < N
          rw [hm, Nat.mul_one]; exact hc
      rw [dif_pos hall]
      unfold term; rw [if_pos hc.1, ext_of_lt x _ hc.2]
      refine congrArg x (funext fun a => ?_)
      match a with
      | ⟨0, _⟩ =>
        refine Fin.ext ?_
        show j.val * 1 + (((⟨1, ![N]⟩ : Shape).rowMajor.symm i) 0).val - lo = j.val + i.val - lo
        rw [hm, Nat.mul_one]
    · have hnall : ¬ ∀ a : Fin 1,
          (![lo] : Fin 1 → Nat) a ≤ (ix1 j (Fin.cast h.1.symm a)).val * (![1] : Fin 1 → Nat) a + ((⟨1, ![N]⟩ : Shape).rowMajor.symm i a).val ∧
            (ix1 j (Fin.cast h.1.symm a)).val * (![1] : Fin 1 → Nat) a + ((⟨1, ![N]⟩ : Shape).rowMajor.symm i a).val - (![lo] : Fin 1 → Nat) a
              < (![N] : Fin 1 → Nat) a := by
        intro hall
        have h0 := hall 0
        have h0' : lo ≤ j.val * 1 + (((⟨1, ![N]⟩ : Shape).rowMajor.symm i) 0).val ∧ j.val * 1 + (((⟨1, ![N]⟩ : Shape).rowMajor.symm i) 0).val - lo < N := h0
        rw [hm, Nat.mul_one] at h0'
        exact hc h0'
      rw [dif_neg hnall]
      unfold term
      by_cases h1 : lo ≤ j.val + i.val
      · rw [if_pos h1]; unfold ext; rw [dif_neg (fun h2 => hc ⟨h1, h2⟩)]
      · rw [if_neg h1]
  rw [Finset.sum_congr rfl (fun i _ => hpt i)]
  rw [Fin.sum_univ_eq_sum_range (fun m => term x lo j.val m), hnum]
  exact sum_term x lo hlo j.val j.isLt

end Cert.Cumsum
-- ==== Proof.RefScatter.lean ====
/-
  The reference's scatter-add read at a position.

  The scatter takes one index per update (index vector of length one, the operand's single axis inserted), reads it as a
  signed integer without clamping, drops the update when the index is outside the operand, and otherwise adds the update
  at that position; the updates are taken in order, and since addition of words is associative and commutative the result
  at position v is the operand's entry plus the sum of the updates whose index is v.
-/
import proofs.«158657_j18021682774682_1_alg».proof.Proof.RefTerm
import Idealize.ShloMosaic.Lib.ValueIdx
import Idealize.ShloMosaic.Lib.Pipeline.Value
import Mathlib.Data.BitVec

open Cert.ReferenceIdeal Idealize.ShloMosaic Idealize.ShloMosaic.ValueIdx
open scoped BigOperators

namespace Cert.ReferenceIdeal.RefScatter

/-- A rank-1 index set is its coordinate range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

abbrev sd := scatter_S496_S1024x1_S1024_n_0_0_1

theorem sd_siIdx (k : Fin 1024) (h) : sd.siIdx (ix1 k) ⟨0, h⟩ = ix2 k (0 : Fin 1) := by
  funext c; refine Fin.ext ?_
  match c with
  | ⟨0, _⟩ => rfl
  | ⟨1, _⟩ => rfl

theorem sd_start_window (idx : IVec S1024x1 32) (k : Fin 1024) (a : Fin 1) :
    sd.start (ix1 k) idx a + (sd.window (ix1 k) a : Int) = (idx (ix2 k (0 : Fin 1))).toInt := by
  obtain rfl : a = 0 := Subsingleton.elim _ _
  have hw : sd.window (ix1 k) (0 : Fin 1) = 0 := by
    unfold ScatterDims.window; rw [dif_neg (by decide)]
  rw [hw]
  unfold ScatterDims.start
  rw [dif_pos (show (0 : Fin 1) ∈ sd.scatterDimsToOperandDims from by decide)]
  have hi : List.idxOf (0 : Fin 1) sd.scatterDimsToOperandDims = 0 := by decide
  simp only [hi]
  rw [sd_siIdx]
  simp

/-- Update k lands at position v exactly when its index, read signed, is v. -/
theorem sd_resultIdx?_eq_some_iff (idx : IVec S1024x1 32) (k : Fin 1024) (v : Fin 496) :
    sd.resultIdx? (ix1 k) idx = some (ix1 v) ↔ (idx (ix2 k (0 : Fin 1))).toInt = (v.val : Int) := by
  unfold ScatterDims.resultIdx?
  simp only [sd_start_window]
  constructor
  · intro h
    split at h
    · next hin =>
      have := congrFun (Option.some.inj h) (0 : Fin 1)
      have hv : ((idx (ix2 k (0 : Fin 1))).toInt).toNat = v.val := congrArg Fin.val this
      have := (hin 0).1
      omega
    · exact absurd h (by simp)
  · intro h
    have hin : ∀ a : Fin 1, 0 ≤ (idx (ix2 k (0 : Fin 1))).toInt ∧ (idx (ix2 k (0 : Fin 1))).toInt < ((S496.size a : Nat) : Int) := by
      intro a
      obtain rfl : a = 0 := Subsingleton.elim _ _
      have := v.isLt
      show 0 ≤ _ ∧ _ < ((496 : Nat) : Int)
      omega
    rw [dif_pos hin]
    congr 1
    funext a
    obtain rfl : a = 0 := Subsingleton.elim _ _
    refine Fin.ext ?_
    show ((idx (ix2 k (0 : Fin 1))).toInt).toNat = v.val
    omega

/-- The scatter-add of w into x at position v: x v plus the sum of the updates whose index is v. -/
theorem scatter_apply (x : IVec S496 32) (idx : IVec S1024x1 32) (w : IVec S1024 32) (v : Fin 496) :
    Host.scatter sd IntOp.addi x idx w (ix1 v)
      = x (ix1 v) + ∑ k : Fin 1024, if (idx (ix2 k (0 : Fin 1))).toInt = (v.val : Int) then w (ix1 k) else 0 := by
  classical
  have hR : (∑ k : Fin 1024, if (idx (ix2 k (0 : Fin 1))).toInt = (v.val : Int) then w (ix1 k) else 0)
      = ((List.finRange S1024.numel).map fun n =>
          if sd.resultIdx? (S1024.rowMajor.symm n) idx = some (ix1 v) then w (S1024.rowMajor.symm n) else 0).sum := by
    rw [← Fin.sum_univ_def,
      Equiv.sum_comp S1024.rowMajor.symm (fun q => if sd.resultIdx? q idx = some (ix1 v) then w q else 0),
      sum_idx1]
    refine Finset.sum_congr rfl fun k _ => ?_
    exact if_congr (sd_resultIdx?_eq_some_iff idx k v).symm rfl rfl
  rw [hR]
  unfold Host.scatter
  generalize List.finRange S1024.numel = l
  induction l generalizing x with
  | nil => simp
  | cons a l ih =>
    rw [List.foldl_cons, ih, List.map_cons, List.sum_cons, ← BitVec.add_assoc]
    refine congrArg₂ (· + ·) ?_ rfl
    cases hta : sd.resultIdx? (S1024.rowMajor.symm a) idx with
    | none => simp
    | some i =>
      by_cases hv : ix1 v = i
      · subst hv
        simp only [if_true]
        rfl
      · have hne : ¬ (some i = some (ix1 v)) := fun h => hv (Option.some.inj h).symm
        simp only [if_neg hv, if_neg hne]
        exact (BitVec.add_zero _).symm

end Cert.ReferenceIdeal.RefScatter
-- ==== Proof.TriCount.lean ====
/-
  Counting in the triangular mask.

  Read the 32 × 32 matrix row by row as positions k = 32 a + b < 1024; the mask is 1 exactly where a < b.  The running count
  csN k of the mask up to and including position k has the closed form off a + max (b - a) 0.  It is nondecreasing, steps
  from p to p + 1 exactly at the position flat p of pair number p, so the number of positions whose running count is at
  most p — which is how the pair's position is recovered from the running count — is flat p.
-/
import Mathlib.Algebra.BigOperators.Group.Finset.Basic
import Mathlib.Algebra.BigOperators.Group.Finset.Piecewise
import Mathlib.Algebra.Order.BigOperators.Group.Finset
import Mathlib.Data.Finset.Card
import proofs.«158657_j18021682774682_1_alg».proof.Proof.TriIndex

namespace Cert.Tri

open Finset

/-- The mask at position k = 32 a + b: one iff a < b. -/
def maskN (k : Nat) : Nat := if k / 32 < k % 32 then 1 else 0

/-- The running count of the mask, position k included. -/
def csN (k : Nat) : Nat := ∑ k' ∈ range (k + 1), maskN k'

/-- Its closed form: the full rows above row a, then the entries of row a right of the diagonal up to column b. -/
def csC (k : Nat) : Nat := off (k / 32) + (if k / 32 < k % 32 then k % 32 - k / 32 else 0)

theorem maskN_le_one (k : Nat) : maskN k ≤ 1 := by unfold maskN; split <;> omega

theorem csN_succ (k : Nat) : csN (k + 1) = csN k + maskN (k + 1) := by
  unfold csN; rw [sum_range_succ]

theorem csN_mono {k k' : Nat} (h : k ≤ k') : csN k ≤ csN k' :=
  sum_le_sum_of_subset (range_mono (by omega))

theorem csC_step : ∀ k : Fin 1023, csC (k.val + 1) = csC k.val + maskN (k.val + 1) := by decide +kernel

theorem csN_eq_csC : ∀ k : Nat, k < 1024 → csN k = csC k
  | 0, _ => by decide
  | k + 1, h => by
    rw [csN_succ, csN_eq_csC k (by omega)]
    exact (csC_step ⟨k, by omega⟩).symm

/-- The running count steps from p to p + 1 exactly at the position of pair p. -/
theorem csC_flat : ∀ p : Fin 496, 1 ≤ flat p.val ∧ flat p.val < 1024 ∧ csC (flat p.val) = p.val + 1
    ∧ csC (flat p.val - 1) = p.val := by decide +kernel

theorem csN_le_iff (p : Nat) (hp : p < 496) (k : Nat) : csN k ≤ p ↔ k < flat p := by
  have h1 : 1 ≤ flat p := (csC_flat ⟨p, hp⟩).1
  have h2 : flat p < 1024 := (csC_flat ⟨p, hp⟩).2.1
  have h3 : csC (flat p) = p + 1 := (csC_flat ⟨p, hp⟩).2.2.1
  have h4 : csC (flat p - 1) = p := (csC_flat ⟨p, hp⟩).2.2.2
  have h3' : csN (flat p) = p + 1 := (csN_eq_csC _ h2).trans h3
  have h4' : csN (flat p - 1) = p := (csN_eq_csC _ (by omega)).trans h4
  constructor
  · intro h
    by_contra hk
    have := csN_mono (Nat.le_of_not_lt hk)
    omega
  · intro h
    have : csN k ≤ csN (flat p - 1) := csN_mono (by have h1' : 1 ≤ flat p := h1; omega)
    omega

/-- The number of positions whose running count is at most p is the position of pair p. -/
theorem card_csN_le (p : Nat) (hp : p < 496) : ((range 1024).filter fun k => csN k ≤ p).card = flat p := by
  have h2 : flat p < 1024 := (csC_flat ⟨p, hp⟩).2.1
  have : ((range 1024).filter fun k => csN k ≤ p) = range (flat p) := by
    ext k
    simp only [mem_filter, mem_range, csN_le_iff p hp]
    omega
  rw [this, card_range]

/-- The running count never exceeds the number of pairs. -/
theorem csN_le (k : Nat) (hk : k < 1024) : csN k ≤ 496 := by
  have h : csN 1023 = 496 := (csN_eq_csC 1023 (by omega)).trans (by decide)
  exact (csN_mono (by omega)).trans h.le

/-- The running count is at most the number of positions counted. -/
theorem csN_le_succ : ∀ k : Nat, csN k ≤ k + 1
  | 0 => by decide
  | k + 1 => by
    rw [csN_succ]
    have h1 := csN_le_succ k
    have h2 := maskN_le_one (k + 1)
    omega

/-- Counting, for each value v ≤ p, the positions whose running count is v, and adding up: the position of pair p. -/
theorem sum_count_eq_flat (p : Nat) (hp : p < 496) :
    ∑ v ∈ range (p + 1), ∑ n ∈ range 1024, (if csN n = v then 1 else 0) = flat p := by
  rw [sum_comm, ← card_csN_le p hp, card_filter]
  refine sum_congr rfl fun n _ => ?_
  rw [sum_ite_eq]
  simp only [mem_range, Nat.lt_succ_iff]

theorem flat_div (p : Nat) (hp : p < 496) : flat p / 32 = row p := by
  have := col_lt p hp; unfold flat; omega

theorem flat_mod (p : Nat) (hp : p < 496) : flat p % 32 = col p := by
  have := col_lt p hp; unfold flat; omega

end Cert.Tri
-- ==== Proof.RefIndex.lean ====
/-
  The reference's index table is the list of pairs of the strict upper triangle.

  Write maskN k for the mask at matrix position k = 32 a + b (1 iff a < b) and csN k for its inclusive running count.
  Stage by stage: the flattened mask at k is the word of maskN k; the first running sum at k is the word of csN k, and the
  clip and the shift leave it alone; the scatter-add of ones at those positions leaves at v the number of positions k
  with csN k = v (positions with csN k = 496, outside the 496 counts, are dropped); the second running sum at p is the
  number of positions k with csN k ≤ p, which is flat p, the matrix position of pair p; and the quotient and remainder
  of flat p by 32 are row p and col p.  The integer stages hold for any float values as soon as the float comparison
  that makes the mask gives the strict upper triangle; at the ideal values it does.
-/
import proofs.«158657_j18021682774682_1_alg».proof.Proof.RefRead
import proofs.«158657_j18021682774682_1_alg».proof.Proof.RefCumsum
import proofs.«158657_j18021682774682_1_alg».proof.Proof.RefScatter
import proofs.«158657_j18021682774682_1_alg».proof.Proof.TriCount
import Idealize.ShloMosaic.PureOps.Ideal.Laws

open Cert.ReferenceIdeal Idealize.ShloMosaic Idealize.ShloMosaic.ValueIdx
open scoped BigOperators

namespace Cert.ReferenceIdeal.RefIndex

open Cert.Tri

section Generic

variable {F : FTy → Type} [FloatOps F]

/-- What the chain needs of the float comparison: the mask is the strict upper triangle. -/
def MaskIsTriangle (F : FTy → Type) [FloatOps F] : Prop :=
  ∀ a b : Fin 32, RefTerm.mask (F := F) (ix2 a b) = if a.val < b.val then 1#1 else 0#1

variable (hm : MaskIsTriangle F)
include hm

theorem maskI_eq (k : Fin 1024) : RefTerm.maskI (F := F) (ix1 k) = BitVec.ofNat 32 (maskN k.val) := by
  rw [RefRead.maskI_apply, hm]
  unfold maskN
  show (if k.val / 32 < k.val % 32 then 1#1 else 0#1).setWidth 32 = _
  by_cases h : k.val / 32 < k.val % 32
  · rw [if_pos h, if_pos h]; rfl
  · rw [if_neg h, if_neg h]; rfl

theorem cs_eq (k : Fin 1024) : RefTerm.cs (F := F) (ix1 k) = BitVec.ofNat 32 (csN k.val) := by
  unfold RefTerm.cs
  rw [Cert.Cumsum.cumsum_apply 1024 1023 rfl _ _ _ _ rfl k]
  unfold csN
  rw [← BitVec.natCast_eq_ofNat, Nat.cast_sum]
  refine Finset.sum_congr rfl fun i hi => ?_
  have hi' : i < 1024 := by have := Finset.mem_range.mp hi; omega
  rw [Cert.Cumsum.ext_of_lt _ _ hi', maskI_eq hm ⟨i, hi'⟩, BitVec.natCast_eq_ofNat]

theorem scatIdx_eq (k : Fin 1024) : RefTerm.scatIdx (F := F) (ix1 k) = BitVec.ofNat 32 (csN k.val) := by
  rw [RefRead.scatIdx_apply, cs_eq hm]
  exact RefWords.scatW_ofNat ⟨csN k.val, by have := csN_le_succ k.val; omega⟩

theorem counts_eq (v : Fin 496) :
    RefTerm.counts (F := F) (ix1 v) = BitVec.ofNat 32 (∑ n ∈ Finset.range 1024, if csN n = v.val then 1 else 0) := by
  unfold RefTerm.counts
  rw [RefScatter.scatter_apply]
  show (0 : BitVec 32) + _ = _
  rw [zero_add]
  conv_rhs => rw [← BitVec.natCast_eq_ofNat, Nat.cast_sum,
    ← Fin.sum_univ_eq_sum_range (fun n => (((if csN n = v.val then 1 else 0 : ℕ)) : BitVec 32)) 1024]
  refine Finset.sum_congr rfl fun k _ => ?_
  have hb : broadcastInDim S1024x1 ![0] Facts₀.bcast_S1024_S1024x1_0 (RefTerm.scatIdx (F := F)) (ix2 k (0 : Fin 1))
      = RefTerm.scatIdx (F := F) (ix1 k) :=
    broadcastInDim_apply _ _ _ _ (ix1 k) (fun a => by obtain rfl : a = 0 := Subsingleton.elim _ _; rfl)
  rw [hb, scatIdx_eq hm, RefWords.toInt_ofNat ⟨csN k.val, by have := csN_le_succ k.val; omega⟩]
  by_cases h : csN k.val = v.val
  · rw [if_pos (by exact_mod_cast h), if_pos h]; rfl
  · rw [if_neg (by exact_mod_cast h), if_neg h]; rfl

theorem flatIdx_eq (p : Fin 496) : RefTerm.flatIdx (F := F) (ix1 p) = BitVec.ofNat 32 (flat p.val) := by
  unfold RefTerm.flatIdx
  rw [Cert.Cumsum.cumsum_apply 496 495 rfl _ _ _ _ rfl p, ← sum_count_eq_flat p.val p.isLt,
    ← BitVec.natCast_eq_ofNat, Nat.cast_sum]
  refine Finset.sum_congr rfl fun v hv => ?_
  have hv' : v < 496 := by have := Finset.mem_range.mp hv; omega
  rw [Cert.Cumsum.ext_of_lt _ _ hv', counts_eq hm ⟨v, hv'⟩, BitVec.natCast_eq_ofNat]

theorem idxTable_row_of (p : Fin 496) :
    RefTerm.idxTable (F := F) (ix2 p (0 : Fin 2)) = BitVec.ofNat 32 (row p.val) := by
  rw [RefRead.idxTable_zero, RefRead.rowIdx_apply, flatIdx_eq hm,
    RefWords.rowW_ofNat ⟨flat p.val, flat_lt p.val p.isLt⟩]
  show BitVec.ofNat 32 (flat p.val / 32) = _
  rw [flat_div p.val p.isLt]

theorem idxTable_col_of (p : Fin 496) :
    RefTerm.idxTable (F := F) (ix2 p (1 : Fin 2)) = BitVec.ofNat 32 (col p.val) := by
  rw [RefRead.idxTable_one, RefRead.colIdx_apply, flatIdx_eq hm,
    RefWords.colW_ofNat ⟨flat p.val, flat_lt p.val p.isLt⟩]
  show BitVec.ofNat 32 (flat p.val % 32) = _
  rw [flat_mod p.val p.isLt]

end Generic

/-- At the ideal values 1 ≠ 0 and 0 = 0: the mask is the strict upper triangle. -/
theorem maskIsTriangle_ideal : MaskIsTriangle Ideal := by
  intro a b
  rw [RefRead.mask_apply, RefWords.sge_ofNat a b]
  have h1 : Ideal.ofBits .f32 0x3F800000#32 = 1 := by simp [Ideal.ofBits, Ideal.ieee, -EReal.coe_mul]; norm_num
  have h0 : Ideal.ofBits .f32 0x00000000#32 = 0 := Ideal.ofBits_zero_f32
  show Ideal.cmp .une (Scalar.select _ (Ideal.ofBits .f32 0x00000000#32) (Ideal.ofBits .f32 0x3F800000#32)) (Ideal.ofBits .f32 0x00000000#32) = _
  rw [h0, h1]
  by_cases h : b.val ≤ a.val
  · rw [if_pos h, if_neg (by omega), select_one]; simp [Ideal.cmp]
  · rw [if_neg h, if_pos (by omega), select_zero]; simp [Ideal.cmp]

theorem idxTable_row (p : Fin 496) :
    RefTerm.idxTable (F := Ideal) (ix2 p (0 : Fin 2)) = BitVec.ofNat 32 (Cert.Tri.row p.val) :=
  idxTable_row_of maskIsTriangle_ideal p

theorem idxTable_col (p : Fin 496) :
    RefTerm.idxTable (F := Ideal) (ix2 p (1 : Fin 2)) = BitVec.ofNat 32 (Cert.Tri.col p.val) :=
  idxTable_col_of maskIsTriangle_ideal p

end Cert.ReferenceIdeal.RefIndex
-- ==== Proof.RefValue.lean ====
/-
  The reference's result read at an index, at the ideal values.

  out x at (b, p) is the gather of x xᵀ at row p of the index table; when that row holds the pair (row p, col p) it is the
  entry (row p, col p) of the b-th Gram matrix, the sum over d of x (b, row p, d) * x (b, col p, d).
-/
import proofs.«158657_j18021682774682_1_alg».proof.Proof.RefGather
import proofs.«158657_j18021682774682_1_alg».proof.Proof.GramStack
import proofs.«158657_j18021682774682_1_alg».proof.Proof.TriIndex
import proofs.«158657_j18021682774682_1_alg».proof.Proof.RefIndex

noncomputable section

open scoped BigOperators

namespace Cert.ReferenceIdeal.RefValue

open Cert.ReferenceIdeal Idealize.ShloMosaic Idealize.ShloMosaic.ValueIdx

/-- The result at (b, p), given that the index table's row p is the pair (row p, col p). -/
theorem out_apply_of
    (hrow : ∀ p : Fin 496, RefTerm.idxTable (F := Ideal) (ix2 p (0 : Fin 2)) = BitVec.ofNat 32 (Cert.Tri.row p.val))
    (hcol : ∀ p : Fin 496, RefTerm.idxTable (F := Ideal) (ix2 p (1 : Fin 2)) = BitVec.ofNat 32 (Cert.Tri.col p.val))
    (x : FVec Ideal S16384x32x128 .f32) (b : Fin 16384) (p : Fin 496) :
    RefTerm.out (F := Ideal) x (ix2 b p)
      = ∑ d : Fin 128, x (ix3 b (Cert.Tri.rowF p) d) * x (ix3 b (Cert.Tri.colF p) d) := by
  unfold RefTerm.out
  rw [RefGather.gather_apply_of _ _ b p (Cert.Tri.rowF p) (Cert.Tri.colF p) (hrow p) (hcol p)]
  exact Cert.Gram.dotGeneral_apply Facts₀.dot_S16384x32x128_S16384x32x128_S16384x32x32_2_2_1_1_0_0_wf none x x b
    (Cert.Tri.rowF p) (Cert.Tri.colF p)

/-- The reference's result at (b, p): the entry (row p, col p) of the b-th Gram matrix. -/
theorem out_apply (x : FVec Ideal S16384x32x128 .f32) (b : Fin 16384) (p : Fin 496) :
    RefTerm.out (F := Ideal) x (ix2 b p)
      = ∑ d : Fin 128, x (ix3 b (Cert.Tri.rowF p) d) * x (ix3 b (Cert.Tri.colF p) d) :=
  out_apply_of RefIndex.idxTable_row RefIndex.idxTable_col x b p

end Cert.ReferenceIdeal.RefValue

end
-- ==== Proof.lean ====
/-
  The certificate of the second-order feature interaction kernel against its jnp reference.

  Both programs take x : f32[16384, 32, 128] and return f32[16384, 496]: for every row b of the batch, the strict upper
  triangle of the Gram matrix of the 32 feature vectors x (b, ·, :), listed row by row,

      result (b, p) = ∑ d, x (b, row p, d) * x (b, col p, d)        (Cert.Spec.result, Cert.Tri.row / col).

  The kernel walks the batch in 32 blocks of 512 rows; on each it forms the Gram matrices on the matrix unit (the rounding
  to bf16 on the way in is the identity at the ideal values) and copies row i of each, from column i + 1 on, to columns
  off i … of the output block: 31 static slices (KernelBlock, KernelValue).  The reference forms all Gram matrices with one
  dot_general and gathers them at jnp.triu_indices (32, 1), which it computes on the host from the triangular mask: a
  running count of the mask, a count of each value of the running count, a running sum of those counts — the matrix
  position of the (p+1)-th pair — and its quotient and remainder by 32 (RefTerm, RefIndex, RefValue); its run is RefRun.
  The two results are the same function of x, term by term: the same products summed over the same index d, so no
  property of the extended reals beyond that is used, and finiteness of the input is not needed.
  The ideal pass rewrote nothing, so `preserves` is trivial; the three frames are the generated frame runs and the
  reference's run.
-/
import proofs.«158657_j18021682774682_1_alg».proof.Defs
import proofs.«158657_j18021682774682_1_alg».proof.Proof.Gen.Kernel
import proofs.«158657_j18021682774682_1_alg».proof.Proof.Gen.Kernel.Skeleton
import proofs.«158657_j18021682774682_1_alg».proof.Proof.Gen.Kernel.Launch
import proofs.«158657_j18021682774682_1_alg».proof.Proof.Gen.Kernel.Points
import proofs.«158657_j18021682774682_1_alg».proof.Proof.Gen.Kernel.Frame
import proofs.«158657_j18021682774682_1_alg».proof.Proof.Gen.KernelIdeal
import proofs.«158657_j18021682774682_1_alg».proof.Proof.Gen.KernelIdeal.Skeleton
import proofs.«158657_j18021682774682_1_alg».proof.Proof.Gen.KernelIdeal.Launch
import proofs.«158657_j18021682774682_1_alg».proof.Proof.Gen.KernelIdeal.Points
import proofs.«158657_j18021682774682_1_alg».proof.Proof.Gen.KernelIdeal.Frame
import proofs.«158657_j18021682774682_1_alg».proof.Proof.Gen.KernelIdeal.Value
import proofs.«158657_j18021682774682_1_alg».proof.Proof.Gen.ReferenceIdeal
import proofs.«158657_j18021682774682_1_alg».proof.Proof.Gen.Pre_finite_inputs
import proofs.«158657_j18021682774682_1_alg».proof.Proof.KernelValue
import proofs.«158657_j18021682774682_1_alg».proof.Proof.RefRun
import proofs.«158657_j18021682774682_1_alg».proof.Proof.RefValue
import Idealize.ShloMosaic.Adequacy
import Idealize.ShloMosaic.Init

noncomputable section

namespace Cert.Proof

open Idealize.ShloMosaic Idealize.ShloMosaic.ValueIdx Idealize.SL.Sem

/-- The reference's term is the common result: the gather of the Gram matrices at the computed pairs reads, at (b, p),
    the sum over d of x (b, row p, d) * x (b, col p, d). -/
theorem ref_out_eq (x : FVec Ideal Cert.ReferenceIdeal.S16384x32x128 .f32) :
    Cert.ReferenceIdeal.RefTerm.out (F := Ideal) x = Cert.Spec.result x := by
  funext Y
  obtain ⟨b, p, rfl⟩ : ∃ (b : Fin 16384) (p : Fin 496), Y = ix2 b p := ⟨Y 0, Y 1, eq_ix2 Y⟩
  exact Cert.ReferenceIdeal.RefValue.out_apply x b p

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RefRun.run (F := Ideal) m ρ)

/-- From memories that agree on x both runs end with the result array at `Cert.Spec.result x`. -/
theorem algebraic : Cert.algebraic_KernelIdeal_ReferenceIdeal := by
  intro m ρ m' ρ' _ hagree
  refine ⟨fun c => Cert.Spec.result (m ((c.tc : Thread Cert.KernelIdeal.nD Cert.KernelIdeal.τ).loc Cert.KernelIdeal.main_arg0)),
    Cert.KernelIdeal.KValue.run m ρ, ?_⟩
  refine (θ_run Cert.ReferenceIdeal.defs _ _).mono (fun _ h c => ⟨(h c).1.trans ?_, (h c).2⟩)
    (Cert.ReferenceIdeal.RefRun.run (F := Ideal) m' ρ')
  rw [hagree c]
  exact ref_out_eq _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
